-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x1 : Shape := ⟨2, ![2000000, 1]⟩
abbrev S128x3 : Shape := ⟨2, ![128, 3]⟩
abbrev S128x1 : Shape := ⟨2, ![128, 1]⟩
abbrev S128x128 : Shape := ⟨2, ![128, 128]⟩
abbrev S2x128 : Shape := ⟨2, ![2, 128]⟩
abbrev S2x1 : Shape := ⟨2, ![2, 1]⟩
abbrev S_ : Shape := ⟨0, ![]⟩

class Facts : Prop where
  bcast_S_S2000000x1 : S_.BroadcastsInDim S2000000x1 (![] : Fin 0 → Fin S2000000x1.rank)
  reducesTo_S2000000x1_S_d0_1 : S2000000x1.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S128x1 : S_.BroadcastsInDim S128x1 (![] : Fin 0 → Fin S128x1.rank)
  reducesTo_S128x1_S_d0_1 : S128x1.ReducesTo [0, 1] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2x1 : S_.BroadcastsInDim S2x1 (![] : Fin 0 → Fin S2x1.rank)
  reducesTo_S2x1_S_d0_1 : S2x1.ReducesTo [0, 1] S_

variable [Facts]

def fn_part3 {F : FTy → Type} [FloatOps F] (main_v48 : IVec S_ 1) (main_v49 : FVec F S2x1 .f32) (main_v50 : FVec F S2x1 .f32) : IVec S_ 1 :=
  let main_v51 : IVec S2x1 1 := cmpf .olt main_v49 main_v50
  let main_c_19 : IVec S_ 1 := constantI S_ 1 1#1
  let main_v52 : IVec S_ 1 := (fun x v => Host.reduce IntOp.andi x v reducesTo_S2x1_S_d0_1 h_S_) main_v51 main_c_19
  let main_v53 : IVec S_ 1 := andi main_v48 main_v52
  main_v53

def fn_part2 {F : FTy → Type} [FloatOps F] (main_arg7 : FVec F S128x128 .f32) (main_arg8 : FVec F S128x1 .f32) (main_arg9 : FVec F S2x128 .f32) (main_arg10 : FVec F S2x1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x1 .f32 := Host.absf main_arg10
  let main_cst_18 : FVec F S_ .f32 := constant S_ .f32 0x7F800000#32
  let main_v50 : FVec F S2x1 .f32 := broadcastInDim S2x1 ![] bcast_S_S2x1 main_cst_18
  fn_part3 (F := F) main_v48 main_v49 main_v50

def fn_part1 {F : FTy → Type} [FloatOps F] (main_arg4 : FVec F S128x1 .f32) (main_arg5 : FVec F S128x128 .f32) (main_arg6 : FVec F S128x1 .f32) (main_arg7 : FVec F S128x128 .f32) (main_arg8 : FVec F S128x1 .f32) (main_arg9 : FVec F S2x128 .f32) (main_arg10 : FVec F S2x1 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2000000x1 .f32) (main_arg1 : FVec F S2000000x1 .f32) (main_arg2 : FVec F S2000000x1 .f32) (main_arg3 : FVec F S128x3 .f32) (main_arg4 : FVec F S128x1 .f32) (main_arg5 : FVec F S128x128 .f32) (main_arg6 : FVec F S128x1 .f32) (main_arg7 : FVec F S128x128 .f32) (main_arg8 : FVec F S128x1 .f32) (main_arg9 : FVec F S2x128 .f32) (main_arg10 : FVec F S2x1 .f32) : IVec S_ 1 :=
  let main_v0 : FVec F S2000000x1 .f32 := Host.absf main_arg0
  let main_cst : FVec F S_ .f32 := constant S_ .f32 0x7F800000#32
  let main_v1 : FVec F S2000000x1 .f32 := broadcastInDim S2000000x1 ![] bcast_S_S2000000x1 main_cst
  let main_v2 : IVec S2000000x1 1 := cmpf .olt main_v0 main_v1
  let main_c : IVec S_ 1 := constantI S_ 1 1#1
  let main_v3 : IVec S_ 1 := (fun x v => Host.reduce IntOp.andi x v reducesTo_S2000000x1_S_d0_1 h_S_) main_v2 main_c
  let main_v4 : FVec F S2000000x1 .f32 := Host.absf main_arg1
  let main_cst_0 : FVec F S_ .f32 := constant S_ .f32 0x7F800000#32
  let main_v5 : FVec F S2000000x1 .f32 := broadcastInDim S2000000x1 ![] bcast_S_S2000000x1 main_cst_0
  let main_v6 : IVec S2000000x1 1 := cmpf .olt main_v4 main_v5
  let main_c_1 : IVec S_ 1 := constantI S_ 1 1#1
  let main_v7 : IVec S_ 1 := (fun x v => Host.reduce IntOp.andi x v reducesTo_S2000000x1_S_d0_1 h_S_) main_v6 main_c_1
  let main_v8 : IVec S_ 1 := andi main_v3 main_v7
  let main_v9 : FVec F S2000000x1 .f32 := Host.absf main_arg2
  let main_cst_2 : FVec F S_ .f32 := constant S_ .f32 0x7F800000#32
  let main_v10 : FVec F S2000000x1 .f32 := broadcastInDim S2000000x1 ![] bcast_S_S2000000x1 main_cst_2
  let main_v11 : IVec S2000000x1 1 := cmpf .olt main_v9 main_v10
  let main_c_3 : IVec S_ 1 := constantI S_ 1 1#1
  let main_v12 : IVec S_ 1 := (fun x v => Host.reduce IntOp.andi x v reducesTo_S2000000x1_S_d0_1 h_S_) main_v11 main_c_3
  let main_v13 : IVec S_ 1 := andi main_v8 main_v12
  let main_v14 : FVec F S128x3 .f32 := Host.absf main_arg3
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg4 main_arg5 main_arg6 main_arg7 main_arg8 main_arg9 main_arg10 main_v13 main_v16
-- ==== Kernel.lean ====
abbrev S2000000x1 : Shape := ⟨2, ![2000000, 1]⟩
abbrev S128x3 : Shape := ⟨2, ![128, 3]⟩
abbrev S128x1 : Shape := ⟨2, ![128, 1]⟩
abbrev S128x128 : Shape := ⟨2, ![128, 128]⟩
abbrev S2x128 : Shape := ⟨2, ![2, 128]⟩
abbrev S2x1 : Shape := ⟨2, ![2, 1]⟩
abbrev S_ : Shape := ⟨0, ![]⟩
abbrev S2000000x4 : Shape := ⟨2, ![2000000, 4]⟩
abbrev S4x2000000 : Shape := ⟨2, ![4, 2000000]⟩
abbrev S128x4 : Shape := ⟨2, ![128, 4]⟩
abbrev S2x2000000 : Shape := ⟨2, ![2, 2000000]⟩
abbrev S4x16000 : Shape := ⟨2, ![4, 16000]⟩
abbrev S2x16000 : Shape := ⟨2, ![2, 16000]⟩
abbrev S128x16000 : Shape := ⟨2, ![128, 16000]⟩
abbrev S2000000x2 : Shape := ⟨2, ![2000000, 2]⟩

abbrev nBuf : Space → Nat
  | .hbm => 22
  | .vmem => 11
  | .smem => 0
  | _ => 0

abbrev bufTy : (tb : Table) → Fin (tcTables nBuf tb) → BufTy
  | .hbm, ⟨0, _⟩ => ⟨S2000000x1, .f32⟩
  | .hbm, ⟨1, _⟩ => ⟨S2000000x1, .f32⟩
  | .hbm, ⟨2, _⟩ => ⟨S2000000x1, .f32⟩
  | .hbm, ⟨3, _⟩ => ⟨S128x3, .f32⟩
  | .hbm, ⟨4, _⟩ => ⟨S128x1, .f32⟩
  | .hbm, ⟨5, _⟩ => ⟨S128x128, .f32⟩
  | .hbm, ⟨6, _⟩ => ⟨S128x1, .f32⟩
  | .hbm, ⟨7, _⟩ => ⟨S128x128, .f32⟩
  | .hbm, ⟨8, _⟩ => ⟨S128x1, .f32⟩
  | .hbm, ⟨9, _⟩ => ⟨S2x128, .f32⟩
  | .hbm, ⟨10, _⟩ => ⟨S2x1, .f32⟩
  | .hbm, ⟨11, _⟩ => ⟨S_, .f32⟩
  | .hbm, ⟨12, _⟩ => ⟨S2000000x1, .f32⟩
  | .hbm, ⟨13, _⟩ => ⟨S2000000x4, .f32⟩
  | .hbm, ⟨14, _⟩ => ⟨S4x2000000, .f32⟩
  | .hbm, ⟨15, _⟩ => ⟨S_, .i32⟩
  | .hbm, ⟨16, _⟩ => ⟨S_, .f32⟩
  | .hbm, ⟨17, _⟩ => ⟨S4x2000000, .f32⟩
  | .hbm, ⟨18, _⟩ => ⟨S128x4, .f32⟩
  | .hbm, ⟨19, _⟩ => ⟨S2x2000000, .bf16⟩
  | .hbm, ⟨20, _⟩ => ⟨S2000000x2, .bf16⟩
  | .hbm, ⟨21, _⟩ => ⟨S2000000x2, .f32⟩
  | .local _ .vmem, ⟨0, _⟩ => ⟨S4x16000, .f32⟩
  | .local _ .vmem, ⟨1, _⟩ => ⟨S4x16000, .f32⟩
  | .local _ .vmem, ⟨2, _⟩ => ⟨S128x4, .f32⟩
  | .local _ .vmem, ⟨3, _⟩ => ⟨S128x128, .f32⟩
  | .local _ .vmem, ⟨4, _⟩ => ⟨S128x1, .f32⟩
  | .local _ .vmem, ⟨5, _⟩ => ⟨S128x128, .f32⟩
  | .local _ .vmem, ⟨6, _⟩ => ⟨S128x1, .f32⟩
  | .local _ .vmem, ⟨7, _⟩ => ⟨S2x128, .f32⟩
  | .local _ .vmem, ⟨8, _⟩ => ⟨S2x1, .f32⟩
  | .local _ .vmem, ⟨9, _⟩ => ⟨S2x16000, .bf16⟩
  | .local _ .vmem, ⟨10, _⟩ => ⟨S2x16000, .bf16⟩
  | _, _ => ⟨S2000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x16000 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S2000000x1 : S_.BroadcastsInDim S2000000x1 (![] : Fin 0 → Fin S2000000x1.rank)
  concatenates_S2000000x1_S2000000x1_S2000000x1_S2000000x1_S2000000x4_d1 : Shape.Concatenates [S2000000x1, S2000000x1, S2000000x1, S2000000x1] S2000000x4 1
  transposes_S2000000x4_S4x2000000_1_0 : S2000000x4.Transposes [1, 0] S4x2000000
  pads_S4x2000000_S4x2000000_000_000 : S4x2000000.Pads (![0, 0] : Fin 2 → Nat) ![0, 0] ![0, 0] S4x2000000
  h_S_ : 0 < S_.numel
  concatenates_S128x3_S128x1_S128x4_d1 : Shape.Concatenates [S128x3, S128x1] S128x4 1
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4x16000_S4x16000_0_0 : ∀ a, (![0, 0] : Fin 2 → Nat) a + S4x16000.size a ≤ S4x16000.size a
  h_S4x16000 : 0 < S4x16000.numel
  shapeCasts_S4x16000_S4x16000 : S4x16000.ShapeCasts S4x16000
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  broadcasts_S128x1_S128x16000 : S128x1.Broadcasts S128x16000
  inb_S2x128_S2x128_0_0 : ∀ a, (![0, 0] : Fin 2 → Nat) a + S2x128.size a ≤ S2x128.size a
  h_S2x128 : 0 < S2x128.numel
  inb_S2x1_S2x1_0_0 : ∀ a, (![0, 0] : Fin 2 → Nat) a + S2x1.size a ≤ S2x1.size a
  h_S2x1 : 0 < S2x1.numel
  broadcasts_S2x1_S2x16000 : S2x1.Broadcasts S2x16000
  bitsLt_bf16_f32 : FTy.bits .bf16 < FTy.bits .f32
  inb_S2x16000_S2x16000_0_0 : ∀ a, (![0, 0] : Fin 2 → Nat) a + S2x16000.size a ≤ S2x16000.size a
  h_S2x16000 : 0 < S2x16000.numel
  packedbf16_S2x16000_S2x16000_0_0 : (Rect.unit (s := S2x16000) ![0, 0] S2x16000.size inb_S2x16000_S2x16000_0_0).PackedRows (EltTy.packing .bf16)
  transposes_S2x2000000_S2000000x2_1_0 : S2x2000000.Transposes [1, 0] S2000000x2
  dot_S128x4_S4x16000_S128x16000_1_0_0_1_n_n_wf : DotDims.WF S128x4 S4x16000 S128x16000 [1] [0] [0] [1] [] []
  dot_S128x128_S128x16000_S128x16000_1_0_0_1_n_n_wf : DotDims.WF S128x128 S128x16000 S128x16000 [1] [0] [0] [1] [] []
  dot_S2x128_S128x16000_S2x16000_1_0_0_1_n_n_wf : DotDims.WF S2x128 S128x16000 S2x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x16000.size a ≤ S4x2000000.size a
  hwx0_0 : ∀ i : grid0.Coords, EltTy.bits .f32 = 32 ∨ (Rect.block (s := S4x2000000) S4x16000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x1.size a ≤ S2x1.size a
  hwx0_7 : ∀ i : grid0.Coords, EltTy.bits .f32 = 32 ∨ (Rect.block (s := S2x1) S2x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x16000.size a ≤ S2x2000000.size a
  hwx0_8 : ∀ i : grid0.Coords, EltTy.bits .bf16 = 32 ∨ (Rect.block (s := S2x2000000) S2x16000.size (cc0_transform_8 i) (hinb0_8 i)).WholeWords (EltTy.packing .bf16)

variable [Facts₀]

def dot_S128x4_S4x16000_S128x16000_1_0_0_1_n_n : DotDims S128x4 S4x16000 S128x16000 where
  lhsContracting := [1]
  rhsContracting := [0]
  lhsNonContracting := [0]
  rhsNonContracting := [1]
  lhsBatch := []
  rhsBatch := []
  wf := dot_S128x4_S4x16000_S128x16000_1_0_0_1_n_n_wf
def dot_S128x128_S128x16000_S128x16000_1_0_0_1_n_n : DotDims S128x128 S128x16000 S128x16000 where
  lhsContracting := [1]
  rhsContracting := [0]
  lhsNonContracting := [0]
  rhsNonContracting := [1]
  lhsBatch := []
  rhsBatch := []
  wf := dot_S128x128_S128x16000_S128x16000_1_0_0_1_n_n_wf
def dot_S2x128_S128x16000_S2x16000_1_0_0_1_n_n : DotDims S2x128 S128x16000 S2x16000 where
  lhsContracting := [1]
  rhsContracting := [0]
  lhsNonContracting := [0]
  rhsNonContracting := [1]
  lhsBatch := []
  rhsBatch := []
  wf := dot_S2x128_S128x16000_S2x16000_1_0_0_1_n_n_wf

abbrev win0_0 : Pipeline.Window sig grid0 :=
  Pipeline.Window.ofSpec (Memref.whole main_v3) S4x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S2x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S2x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S2x16000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2000000x1 : Shape := ⟨2, ![2000000, 1]⟩
abbrev S128x3 : Shape := ⟨2, ![128, 3]⟩
abbrev S128x1 : Shape := ⟨2, ![128, 1]⟩
abbrev S128x128 : Shape := ⟨2, ![128, 128]⟩
abbrev S2x128 : Shape := ⟨2, ![2, 128]⟩
abbrev S2x1 : Shape := ⟨2, ![2, 1]⟩
abbrev S2000000x3 : Shape := ⟨2, ![2000000, 3]⟩
abbrev S3x2000000 : Shape := ⟨2, ![3, 2000000]⟩
abbrev S_ : Shape := ⟨0, ![]⟩
abbrev S8x2015232 : Shape := ⟨2, ![8, 2015232]⟩
abbrev S128x8 : Shape := ⟨2, ![128, 8]⟩
abbrev S2x2015232 : Shape := ⟨2, ![2, 2015232]⟩
abbrev S8x15744 : Shape := ⟨2, ![8, 15744]⟩
abbrev S2x15744 : Shape := ⟨2, ![2, 15744]⟩
abbrev S128x15744 : Shape := ⟨2, ![128, 15744]⟩
abbrev S2x2000000 : Shape := ⟨2, ![2, 2000000]⟩
abbrev S2000000x2 : Shape := ⟨2, ![2000000, 2]⟩

abbrev nBuf : Space → Nat
  | .hbm => 22
  | .vmem => 12
  | .smem => 0
  | _ => 0

abbrev bufTy : (tb : Table) → Fin (tcTables nBuf tb) → BufTy
  | .hbm, ⟨0, _⟩ => ⟨S2000000x1, .f32⟩
  | .hbm, ⟨1, _⟩ => ⟨S2000000x1, .f32⟩
  | .hbm, ⟨2, _⟩ => ⟨S2000000x1, .f32⟩
  | .hbm, ⟨3, _⟩ => ⟨S128x3, .f32⟩
  | .hbm, ⟨4, _⟩ => ⟨S128x1, .f32⟩
  | .hbm, ⟨5, _⟩ => ⟨S128x128, .f32⟩
  | .hbm, ⟨6, _⟩ => ⟨S128x1, .f32⟩
  | .hbm, ⟨7, _⟩ => ⟨S128x128, .f32⟩
  | .hbm, ⟨8, _⟩ => ⟨S128x1, .f32⟩
  | .hbm, ⟨9, _⟩ => ⟨S2x128, .f32⟩
  | .hbm, ⟨10, _⟩ => ⟨S2x1, .f32⟩
  | .hbm, ⟨11, _⟩ => ⟨S2000000x3, .f32⟩
  | .hbm, ⟨12, _⟩ => ⟨S3x2000000, .f32⟩
  | .hbm, ⟨13, _⟩ => ⟨S_, .i32⟩
  | .hbm, ⟨14, _⟩ => ⟨S_, .f32⟩
  | .hbm, ⟨15, _⟩ => ⟨S8x2015232, .f32⟩
  | .hbm, ⟨16, _⟩ => ⟨S_, .i32⟩
  | .hbm, ⟨17, _⟩ => ⟨S_, .f32⟩
  | .hbm, ⟨18, _⟩ => ⟨S128x8, .f32⟩
  | .hbm, ⟨19, _⟩ => ⟨S2x2015232, .f32⟩
  | .hbm, ⟨20, _⟩ => ⟨S2x2000000, .f32⟩
  | .hbm, ⟨21, _⟩ => ⟨S2000000x2, .f32⟩
  | .local _ .vmem, ⟨0, _⟩ => ⟨S8x15744, .f32⟩
  | .local _ .vmem, ⟨1, _⟩ => ⟨S8x15744, .f32⟩
  | .local _ .vmem, ⟨2, _⟩ => ⟨S128x8, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S128x128, .f32⟩
  | .local _ .vmem, ⟨7, _⟩ => ⟨S128x1, .f32⟩
  | .local _ .vmem, ⟨8, _⟩ => ⟨S2x128, .f32⟩
  | .local _ .vmem, ⟨9, _⟩ => ⟨S2x1, .f32⟩
  | .local _ .vmem, ⟨10, _⟩ => ⟨S2x15744, .f32⟩
  | .local _ .vmem, ⟨11, _⟩ => ⟨S2x15744, .f32⟩
  | _, _ => ⟨S2000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x15744 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x15744 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S2000000x1_S2000000x1_S2000000x1_S2000000x3_d1 : Shape.Concatenates [S2000000x1, S2000000x1, S2000000x1] S2000000x3 1
  transposes_S2000000x3_S3x2000000_1_0 : S2000000x3.Transposes [1, 0] S3x2000000
  pads_S3x2000000_S8x2015232_050_0152320 : S3x2000000.Pads (![0, 0] : Fin 2 → Nat) ![5, 15232] ![0, 0] S8x2015232
  h_S_ : 0 < S_.numel
  pads_S128x3_S128x8_000_050 : S128x3.Pads (![0, 0] : Fin 2 → Nat) ![0, 5] ![0, 0] S128x8
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8x15744_S8x15744_0_0 : ∀ a, (![0, 0] : Fin 2 → Nat) a + S8x15744.size a ≤ S8x15744.size a
  h_S8x15744 : 0 < S8x15744.numel
  shapeCasts_S8x15744_S8x15744 : S8x15744.ShapeCasts S8x15744
  inb_S128x1_S128x1_0_0 : ∀ a, (![0, 0] : Fin 2 → Nat) a + S128x1.size a ≤ S128x1.size a
  h_S128x1 : 0 < S128x1.numel
  broadcasts_S128x1_S128x15744 : S128x1.Broadcasts S128x15744
  inb_S128x128_S128x128_0_0 : ∀ a, (![0, 0] : Fin 2 → Nat) a + S128x128.size a ≤ S128x128.size a
  h_S128x128 : 0 < S128x128.numel
  inb_S2x128_S2x128_0_0 : ∀ a, (![0, 0] : Fin 2 → Nat) a + S2x128.size a ≤ S2x128.size a
  h_S2x128 : 0 < S2x128.numel
  inb_S2x1_S2x1_0_0 : ∀ a, (![0, 0] : Fin 2 → Nat) a + S2x1.size a ≤ S2x1.size a
  h_S2x1 : 0 < S2x1.numel
  broadcasts_S2x1_S2x15744 : S2x1.Broadcasts S2x15744
  inb_S2x15744_S2x15744_0_0 : ∀ a, (![0, 0] : Fin 2 → Nat) a + S2x15744.size a ≤ S2x15744.size a
  h_S2x15744 : 0 < S2x15744.numel
  slices_S2x2015232_S2x2000000_0_0 : S2x2015232.Slices ![0, 0] S2x2000000
  transposes_S2x2000000_S2000000x2_1_0 : S2x2000000.Transposes [1, 0] S2000000x2
  dot_S128x8_S8x15744_S128x15744_1_0_0_1_n_n_wf : DotDims.WF S128x8 S8x15744 S128x15744 [1] [0] [0] [1] [] []
  dot_S128x128_S128x15744_S128x15744_1_0_0_1_n_n_wf : DotDims.WF S128x128 S128x15744 S128x15744 [1] [0] [0] [1] [] []
  dot_S2x128_S128x15744_S2x15744_1_0_0_1_n_n_wf : DotDims.WF S2x128 S128x15744 S2x15744 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x15744.size a ≤ S8x2015232.size a
  hwx0_0 : ∀ i : grid0.Coords, EltTy.bits .f32 = 32 ∨ (Rect.block (s := S8x2015232) S8x15744.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x128.size a ≤ S2x128.size a
  hwx0_7 : ∀ i : grid0.Coords, EltTy.bits .f32 = 32 ∨ (Rect.block (s := S2x128) S2x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x1.size a ≤ S2x1.size a
  hwx0_8 : ∀ i : grid0.Coords, EltTy.bits .f32 = 32 ∨ (Rect.block (s := S2x1) S2x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x15744.size a ≤ S2x2015232.size a
  hwx0_9 : ∀ i : grid0.Coords, EltTy.bits .f32 = 32 ∨ (Rect.block (s := S2x2015232) S2x15744.size (cc0_transform_9 i) (hinb0_9 i)).WholeWords (EltTy.packing .f32)

variable [Facts₀]

def dot_S128x8_S8x15744_S128x15744_1_0_0_1_n_n : DotDims S128x8 S8x15744 S128x15744 where
  lhsContracting := [1]
  rhsContracting := [0]
  lhsNonContracting := [0]
  rhsNonContracting := [1]
  lhsBatch := []
  rhsBatch := []
  wf := dot_S128x8_S8x15744_S128x15744_1_0_0_1_n_n_wf
def dot_S128x128_S128x15744_S128x15744_1_0_0_1_n_n : DotDims S128x128 S128x15744 S128x15744 where
  lhsContracting := [1]
  rhsContracting := [0]
  lhsNonContracting := [0]
  rhsNonContracting := [1]
  lhsBatch := []
  rhsBatch := []
  wf := dot_S128x128_S128x15744_S128x15744_1_0_0_1_n_n_wf
def dot_S2x128_S128x15744_S2x15744_1_0_0_1_n_n : DotDims S2x128 S128x15744 S2x15744 where
  lhsContracting := [1]
  rhsContracting := [0]
  lhsNonContracting := [0]
  rhsNonContracting := [1]
  lhsBatch := []
  rhsBatch := []
  wf := dot_S2x128_S128x15744_S2x15744_1_0_0_1_n_n_wf

abbrev win0_0 : Pipeline.Window sig grid0 :=
  Pipeline.Window.ofSpec (Memref.whole main_v2) S8x15744.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S2x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S2x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S2x15744.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.KBFrame.lean ====
/-
  The frame of `Kernel`: its entry function is host operations (the [2000000,4] slab of x, y, t and a column of ones,
  transposed; the [128,4] matrix of w1 beside b1), one pipelined region of 125 grid points over nine windows, and two host
  operations after it (a transpose and a change of float format).  Written over the library's run theorem for a region
  with host lines on both sides: the contents of every buffer when the region is entered (`V`), the block of each window
  at a grid point (`iblk`), what the body leaves in the output window's buffer (`outB`: its one store of the body's
  arithmetic on the eight input blocks), the body's triple, the per-point obligation, the run, and the frame claim read
  off the run's post.  Stated at any float instance.
-/
import proofs.«120418_g2000004916831270_pallasbulk_862_25_alg».proof.Proof.Gen.Kernel.Launch
import proofs.«120418_g2000004916831270_pallasbulk_862_25_alg».proof.Proof.Gen.Kernel.Skeleton
import proofs.«120418_g2000004916831270_pallasbulk_862_25_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The stretches of host operations before the region, and the one after it. -/
abbrev pre : List (List (HloOp τ sig (Elt F))) := [hostOps0, hostOps0_1, hostOps0_2]
abbrev post : List (List (HloOp τ sig (Elt F))) := [hostOps1]

/-- Every buffer's contents on core `c` when the region is entered: the launch contents after the host operations
    before the region. -/
abbrev V0 (c : Dev nD) : Valuation τ sig (Elt F) := StableHlo.after (List.flatten (pre (F := F))) (fun b => m (c, b))
/-- The same, read at a buffer of the core. -/
abbrev V (c : Dev nD) (b : Ref sig .tc) : Buf (Elt F) ((c : Thread nD τ).loc b) := V0 m c (Proc.devRef .tc b)

theorem pre_fresh : (pre (F := F)).Forall fun ops => ops.Forall fun op => op.fresh = ∅ := by
  simp only [List.Forall]; repeat' constructor
theorem post_fresh : (hostOps1 : List (HloOp τ sig (Elt F))).Forall fun op => op.fresh = ∅ := by
  simp only [List.Forall]; repeat' constructor
theorem pre_sub : (pre (F := F)).Forall fun ops => ops.Forall fun op => op.bufs ⊆ StableHlo.tcRefs τ sig := by
  simp only [List.Forall]; exact ⟨hostOps0_sub, hostOps0_1_sub, hostOps0_2_sub⟩

/-- The entry function is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) (post (F := F)) pre_sub pre_fresh main_chain

/-- The operations after the region touch only arrays of the region and buffers that bypass it, -/
theorem sfx_sub : ∀ ops ∈ (post (F := F)), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ (post (F := F)), ∀ op ∈ ops, op.fresh = ∅ := by
  intro ops hops op hop
  simp only [List.mem_cons, List.mem_nil_iff, or_false] at hops
  rcases hops with rfl
  exact (List.forall_iff_forall_mem.mp post_fresh) op hop
/-- and write no array of the region: each writes its own result buffer. -/
theorem sfx_keeps : ∀ ops ∈ (post (F := F)), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.nary_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation after the region writes argument 0, and the region does not stage it. -/
theorem W_main_arg0 (dats : (p : Fin _) → (c : Dev nD) → Dat τ (Elt F) Unit ℕ (UR sig nD τ) ℕ (cfgs p) c) (c : Dev nD) :
    Pipeline.afterTail₀ cfgs dats 0 (V0 m) (post (F := F)) c main_arg0 = m ((c : Thread nD τ).loc main_arg0) := by
  unfold Pipeline.afterTail₀
  rw [StableHlo.after_of_forall_not_mem (b := Proc.devRef .tc main_arg0) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1, and the region does not stage it. -/
theorem W_main_arg1 (dats : (p : Fin _) → (c : Dev nD) → Dat τ (Elt F) Unit ℕ (UR sig nD τ) ℕ (cfgs p) c) (c : Dev nD) :
    Pipeline.afterTail₀ cfgs dats 0 (V0 m) (post (F := F)) c main_arg1 = m ((c : Thread nD τ).loc main_arg1) := by
  unfold Pipeline.afterTail₀
  rw [StableHlo.after_of_forall_not_mem (b := Proc.devRef .tc main_arg1) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and the region does not stage it. -/
theorem W_main_arg2 (dats : (p : Fin _) → (c : Dev nD) → Dat τ (Elt F) Unit ℕ (UR sig nD τ) ℕ (cfgs p) c) (c : Dev nD) :
    Pipeline.afterTail₀ cfgs dats 0 (V0 m) (post (F := F)) c main_arg2 = m ((c : Thread nD τ).loc main_arg2) := by
  unfold Pipeline.afterTail₀
  rw [StableHlo.after_of_forall_not_mem (b := Proc.devRef .tc main_arg2) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and the region does not stage it. -/
theorem W_main_arg3 (dats : (p : Fin _) → (c : Dev nD) → Dat τ (Elt F) Unit ℕ (UR sig nD τ) ℕ (cfgs p) c) (c : Dev nD) :
    Pipeline.afterTail₀ cfgs dats 0 (V0 m) (post (F := F)) c main_arg3 = m ((c : Thread nD τ).loc main_arg3) := by
  unfold Pipeline.afterTail₀
  rw [StableHlo.after_of_forall_not_mem (b := Proc.devRef .tc main_arg3) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, and the region does not stage it. -/
theorem W_main_arg4 (dats : (p : Fin _) → (c : Dev nD) → Dat τ (Elt F) Unit ℕ (UR sig nD τ) ℕ (cfgs p) c) (c : Dev nD) :
    Pipeline.afterTail₀ cfgs dats 0 (V0 m) (post (F := F)) c main_arg4 = m ((c : Thread nD τ).loc main_arg4) := by
  unfold Pipeline.afterTail₀
  rw [StableHlo.after_of_forall_not_mem (b := Proc.devRef .tc main_arg4) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is not
    fetched its block index has not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is not
    fetched its block index has not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is not
    fetched its block index has not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- Each access of the body is of a whole buffer. -/
abbrev rS4x16000 : Rect S4x16000 := Rect.unit (s := S4x16000) ![0, 0] S4x16000.size inb_S4x16000_S4x16000_0_0
abbrev rS128x4 : Rect S128x4 := Rect.unit (s := S128x4) ![0, 0] S128x4.size inb_S128x4_S128x4_0_0
abbrev rS128x128 : Rect S128x128 := Rect.unit (s := S128x128) ![0, 0] S128x128.size inb_S128x128_S128x128_0_0
abbrev rS128x1 : Rect S128x1 := Rect.unit (s := S128x1) ![0, 0] S128x1.size inb_S128x1_S128x1_0_0
abbrev rS2x128 : Rect S2x128 := Rect.unit (s := S2x128) ![0, 0] S2x128.size inb_S2x128_S2x128_0_0
abbrev rS2x1 : Rect S2x1 := Rect.unit (s := S2x1) ![0, 0] S2x1.size inb_S2x1_S2x1_0_0
abbrev rS2x16000 : Rect S2x16000 := Rect.unit (s := S2x16000) ![0, 0] S2x16000.size inb_S2x16000_S2x16000_0_0

/-- What the body leaves in the output window's buffer, from the input blocks: its one store, of the body's
    arithmetic on the blocks as loaded whole. -/
def outB (x0 : Vec F S4x16000 .f32) (x1 : Vec F S128x4 .f32) (x2 : Vec F S128x128 .f32) (x3 : Vec F S128x1 .f32) (x4 : Vec F S128x128 .f32) (x5 : Vec F S128x1 .f32) (x6 : Vec F S2x128 .f32) (x7 : Vec F S2x1 .f32) : Vec F S2x16000 .bf16 :=
  View.canon [⟨rS2x16000, k0_pay1 (View.ld x1 rS128x4) (View.ld x0 rS4x16000) (View.ld x2 rS128x128) (View.ld x3 rS128x1) (View.ld x4 rS128x128) (View.ld x5 rS128x1) (View.ld x6 rS2x128) (View.ld x7 rS2x1)⟩]

/-- The one store fills the buffer. -/
theorem coverB (p0 : Vec F S2x16000 .bf16) (y : S2x16000.Idx) :
    ∃ pc ∈ ([⟨rS2x16000, p0⟩] : List (View.Piece (Elt F) S2x16000 .bf16)), y ∈ pc.1.set :=
  View.cover_of_tiled [⟨rS2x16000, p0⟩] S2x16000.size (by rfl) y

set_option maxHeartbeats 4000000 in
/-- The body on whole staging buffers, the inputs' holding `xW` and the output's anything, runs to the end leaving the
    inputs' as they were and the output's at `outB` of the inputs'. -/
theorem sound_kernel (c : Dev nD) (E : Set ℕ) (i : grid0.Coords)
    (arg1 : Memref sig .tc .vmem S4x16000 .f32) (harg1 : arg1.IsWhole)
    (arg2 : Memref sig .tc .vmem S128x4 .f32) (harg2 : arg2.IsWhole)
    (arg3 : Memref sig .tc .vmem S128x128 .f32) (harg3 : arg3.IsWhole)
    (arg4 : Memref sig .tc .vmem S128x1 .f32) (harg4 : arg4.IsWhole)
    (arg5 : Memref sig .tc .vmem S128x128 .f32) (harg5 : arg5.IsWhole)
    (arg6 : Memref sig .tc .vmem S128x1 .f32) (harg6 : arg6.IsWhole)
    (arg7 : Memref sig .tc .vmem S2x128 .f32) (harg7 : arg7.IsWhole)
    (arg8 : Memref sig .tc .vmem S2x1 .f32) (harg8 : arg8.IsWhole)
    (arg9 : Memref sig .tc .vmem S2x16000 .bf16) (harg9 : arg9.IsWhole)
    (x0 : Vec F S4x16000 .f32) (x1 : Vec F S128x4 .f32) (x2 : Vec F S128x128 .f32) (x3 : Vec F S128x1 .f32) (x4 : Vec F S128x128 .f32) (x5 : Vec F S128x1 .f32) (x6 : Vec F S2x128 .f32) (x7 : Vec F S2x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (outB x0 x1 x2 x3 x4 x5 x6 x7)) -∗ K ⟨⟩))
      ⊢ wp frame (wpE (defs₀ (F := F)) Variants.none c none) E
          (cc0__mlp_body i arg1 harg1 arg2 harg2 arg3 harg3 arg4 harg4 arg5 harg5 arg6 harg6 arg7 harg7 arg8 harg8 arg9 harg9) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverB _)

/-! ## The proof data -/

/-- On core `c`: the arrays as the region finds them; after the body at point `t` each input's buffer at its block and the
    output's at `outB` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outB (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem afterOut (c : Dev nD) (t : Fin cfg0.N) : (dats m 0 c).after 8 t
    = outB (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, afterOut]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function ends, nothing faulting, with every array of the region at what the
    proof data computes and every other buffer as the host operations after the region leave it. -/
theorem run_main : θ_run defs (onTc (τ := τ) (main (F := F))) (s₀ m ρ)
    (Pipeline.FramePost cfgs (dats m) 0 (Pipeline.afterTail₀ cfgs (dats m) 0 (V0 m) (post (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := post (F := F)) (hsub := sfx_sub) (hfresh := sfx_fresh) (hkeep := sfx_keeps)
    (hmain := hmain m Variants.none) (hA := A_eq m) (hΦ := fun _ _ => rfl)

/-- What the run's post says of each argument array: it ends as launched. -/
theorem kept_of_post (r : PUnit × MemSt nD τ sig (Elt F))
    (h : Pipeline.FramePost cfgs (dats m) 0 (Pipeline.afterTail₀ cfgs (dats m) 0 (V0 m) (post (F := F))) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10) :=
  ⟨
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c))),
      ((h c).1 6).trans (((dats m 0 c).arrAt_in 6 rfl _).trans ((A_eq m c 6).trans (V_main_arg9 m c))),
      ((h c).1 7).trans (((dats m 0 c).arrAt_in 7 rfl _).trans ((A_eq m c 7).trans (V_main_arg10 m c)))⟩

/-- The frame: the entry function runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => kept_of_post m r h c) (run_main m ρ)

end Cert.Kernel.Hand

end
-- ==== Proof.KIFrame.lean ====
/-
  The frame of `KernelIdeal`: its entry function is host operations (the [2000000,4] slab of x, y, t and a column of ones,
  transposed; the [128,4] matrix of w1 beside b1), one pipelined region of 125 grid points over nine windows, and two host
  operations after it (a transpose and a change of float format).  Written over the library's run theorem for a region
  with host lines on both sides: the contents of every buffer when the region is entered (`V`), the block of each window
  at a grid point (`iblk`), what the body leaves in the output window's buffer (`outB`: its one store of the body's
  arithmetic on the eight input blocks), the body's triple, the per-point obligation, the run, and the frame claim read
  off the run's post.  Stated at any float instance.
-/
import proofs.«120418_g2000004916831270_pallasbulk_862_25_alg».proof.Proof.Gen.KernelIdeal.Launch
import proofs.«120418_g2000004916831270_pallasbulk_862_25_alg».proof.Proof.Gen.KernelIdeal.Skeleton
import proofs.«120418_g2000004916831270_pallasbulk_862_25_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The stretches of host operations before the region, and the one after it. -/
abbrev pre : List (List (HloOp τ sig (Elt F))) := [hostOps0, hostOps0_1, hostOps0_2]
abbrev post : List (List (HloOp τ sig (Elt F))) := [hostOps1]

/-- Every buffer's contents on core `c` when the region is entered: the launch contents after the host operations
    before the region. -/
abbrev V0 (c : Dev nD) : Valuation τ sig (Elt F) := StableHlo.after (List.flatten (pre (F := F))) (fun b => m (c, b))
/-- The same, read at a buffer of the core. -/
abbrev V (c : Dev nD) (b : Ref sig .tc) : Buf (Elt F) ((c : Thread nD τ).loc b) := V0 m c (Proc.devRef .tc b)

theorem pre_fresh : (pre (F := F)).Forall fun ops => ops.Forall fun op => op.fresh = ∅ := by
  simp only [List.Forall]; repeat' constructor
theorem post_fresh : (hostOps1 : List (HloOp τ sig (Elt F))).Forall fun op => op.fresh = ∅ := by
  simp only [List.Forall]; repeat' constructor
theorem pre_sub : (pre (F := F)).Forall fun ops => ops.Forall fun op => op.bufs ⊆ StableHlo.tcRefs τ sig := by
  simp only [List.Forall]; exact ⟨hostOps0_sub, hostOps0_1_sub, hostOps0_2_sub⟩

/-- The entry function is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) (post (F := F)) pre_sub pre_fresh main_chain

/-- The operations after the region touch only arrays of the region and buffers that bypass it, -/
theorem sfx_sub : ∀ ops ∈ (post (F := F)), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ (post (F := F)), ∀ op ∈ ops, op.fresh = ∅ := by
  intro ops hops op hop
  simp only [List.mem_cons, List.mem_nil_iff, or_false] at hops
  rcases hops with rfl
  exact (List.forall_iff_forall_mem.mp post_fresh) op hop
/-- and write no array of the region: each writes its own result buffer. -/
theorem sfx_keeps : ∀ ops ∈ (post (F := F)), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.nary_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [pre, hostOps0, hostOps0_1, hostOps0_2, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation after the region writes argument 0, and the region does not stage it. -/
theorem W_main_arg0 (dats : (p : Fin _) → (c : Dev nD) → Dat τ (Elt F) Unit ℕ (UR sig nD τ) ℕ (cfgs p) c) (c : Dev nD) :
    Pipeline.afterTail₀ cfgs dats 0 (V0 m) (post (F := F)) c main_arg0 = m ((c : Thread nD τ).loc main_arg0) := by
  unfold Pipeline.afterTail₀
  rw [StableHlo.after_of_forall_not_mem (b := Proc.devRef .tc main_arg0) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1, and the region does not stage it. -/
theorem W_main_arg1 (dats : (p : Fin _) → (c : Dev nD) → Dat τ (Elt F) Unit ℕ (UR sig nD τ) ℕ (cfgs p) c) (c : Dev nD) :
    Pipeline.afterTail₀ cfgs dats 0 (V0 m) (post (F := F)) c main_arg1 = m ((c : Thread nD τ).loc main_arg1) := by
  unfold Pipeline.afterTail₀
  rw [StableHlo.after_of_forall_not_mem (b := Proc.devRef .tc main_arg1) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and the region does not stage it. -/
theorem W_main_arg2 (dats : (p : Fin _) → (c : Dev nD) → Dat τ (Elt F) Unit ℕ (UR sig nD τ) ℕ (cfgs p) c) (c : Dev nD) :
    Pipeline.afterTail₀ cfgs dats 0 (V0 m) (post (F := F)) c main_arg2 = m ((c : Thread nD τ).loc main_arg2) := by
  unfold Pipeline.afterTail₀
  rw [StableHlo.after_of_forall_not_mem (b := Proc.devRef .tc main_arg2) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and the region does not stage it. -/
theorem W_main_arg3 (dats : (p : Fin _) → (c : Dev nD) → Dat τ (Elt F) Unit ℕ (UR sig nD τ) ℕ (cfgs p) c) (c : Dev nD) :
    Pipeline.afterTail₀ cfgs dats 0 (V0 m) (post (F := F)) c main_arg3 = m ((c : Thread nD τ).loc main_arg3) := by
  unfold Pipeline.afterTail₀
  rw [StableHlo.after_of_forall_not_mem (b := Proc.devRef .tc main_arg3) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, and the region does not stage it. -/
theorem W_main_arg4 (dats : (p : Fin _) → (c : Dev nD) → Dat τ (Elt F) Unit ℕ (UR sig nD τ) ℕ (cfgs p) c) (c : Dev nD) :
    Pipeline.afterTail₀ cfgs dats 0 (V0 m) (post (F := F)) c main_arg4 = m ((c : Thread nD τ).loc main_arg4) := by
  unfold Pipeline.afterTail₀
  rw [StableHlo.after_of_forall_not_mem (b := Proc.devRef .tc main_arg4) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is not
    fetched its block index has not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is not
    fetched its block index has not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is not
    fetched its block index has not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- Each access of the body is of a whole buffer. -/
abbrev rS4x16000 : Rect S4x16000 := Rect.unit (s := S4x16000) ![0, 0] S4x16000.size inb_S4x16000_S4x16000_0_0
abbrev rS128x4 : Rect S128x4 := Rect.unit (s := S128x4) ![0, 0] S128x4.size inb_S128x4_S128x4_0_0
abbrev rS128x128 : Rect S128x128 := Rect.unit (s := S128x128) ![0, 0] S128x128.size inb_S128x128_S128x128_0_0
abbrev rS128x1 : Rect S128x1 := Rect.unit (s := S128x1) ![0, 0] S128x1.size inb_S128x1_S128x1_0_0
abbrev rS2x128 : Rect S2x128 := Rect.unit (s := S2x128) ![0, 0] S2x128.size inb_S2x128_S2x128_0_0
abbrev rS2x1 : Rect S2x1 := Rect.unit (s := S2x1) ![0, 0] S2x1.size inb_S2x1_S2x1_0_0
abbrev rS2x16000 : Rect S2x16000 := Rect.unit (s := S2x16000) ![0, 0] S2x16000.size inb_S2x16000_S2x16000_0_0

/-- What the body leaves in the output window's buffer, from the input blocks: its one store, of the body's
    arithmetic on the blocks as loaded whole. -/
def outB (x0 : Vec F S4x16000 .f32) (x1 : Vec F S128x4 .f32) (x2 : Vec F S128x128 .f32) (x3 : Vec F S128x1 .f32) (x4 : Vec F S128x128 .f32) (x5 : Vec F S128x1 .f32) (x6 : Vec F S2x128 .f32) (x7 : Vec F S2x1 .f32) : Vec F S2x16000 .bf16 :=
  View.canon [⟨rS2x16000, k0_pay1 (View.ld x1 rS128x4) (View.ld x0 rS4x16000) (View.ld x2 rS128x128) (View.ld x3 rS128x1) (View.ld x4 rS128x128) (View.ld x5 rS128x1) (View.ld x6 rS2x128) (View.ld x7 rS2x1)⟩]

/-- The one store fills the buffer. -/
theorem coverB (p0 : Vec F S2x16000 .bf16) (y : S2x16000.Idx) :
    ∃ pc ∈ ([⟨rS2x16000, p0⟩] : List (View.Piece (Elt F) S2x16000 .bf16)), y ∈ pc.1.set :=
  View.cover_of_tiled [⟨rS2x16000, p0⟩] S2x16000.size (by rfl) y

set_option maxHeartbeats 4000000 in
/-- The body on whole staging buffers, the inputs' holding `xW` and the output's anything, runs to the end leaving the
    inputs' as they were and the output's at `outB` of the inputs'. -/
theorem sound_kernel (c : Dev nD) (E : Set ℕ) (i : grid0.Coords)
    (arg1 : Memref sig .tc .vmem S4x16000 .f32) (harg1 : arg1.IsWhole)
    (arg2 : Memref sig .tc .vmem S128x4 .f32) (harg2 : arg2.IsWhole)
    (arg3 : Memref sig .tc .vmem S128x128 .f32) (harg3 : arg3.IsWhole)
    (arg4 : Memref sig .tc .vmem S128x1 .f32) (harg4 : arg4.IsWhole)
    (arg5 : Memref sig .tc .vmem S128x128 .f32) (harg5 : arg5.IsWhole)
    (arg6 : Memref sig .tc .vmem S128x1 .f32) (harg6 : arg6.IsWhole)
    (arg7 : Memref sig .tc .vmem S2x128 .f32) (harg7 : arg7.IsWhole)
    (arg8 : Memref sig .tc .vmem S2x1 .f32) (harg8 : arg8.IsWhole)
    (arg9 : Memref sig .tc .vmem S2x16000 .bf16) (harg9 : arg9.IsWhole)
    (x0 : Vec F S4x16000 .f32) (x1 : Vec F S128x4 .f32) (x2 : Vec F S128x128 .f32) (x3 : Vec F S128x1 .f32) (x4 : Vec F S128x128 .f32) (x5 : Vec F S128x1 .f32) (x6 : Vec F S2x128 .f32) (x7 : Vec F S2x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (outB x0 x1 x2 x3 x4 x5 x6 x7)) -∗ K ⟨⟩))
      ⊢ wp frame (wpE (defs₀ (F := F)) Variants.none c none) E
          (cc0__mlp_body i arg1 harg1 arg2 harg2 arg3 harg3 arg4 harg4 arg5 harg5 arg6 harg6 arg7 harg7 arg8 harg8 arg9 harg9) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverB _)

/-! ## The proof data -/

/-- On core `c`: the arrays as the region finds them; after the body at point `t` each input's buffer at its block and the
    output's at `outB` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outB (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem afterOut (c : Dev nD) (t : Fin cfg0.N) : (dats m 0 c).after 8 t
    = outB (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, afterOut]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function ends, nothing faulting, with every array of the region at what the
    proof data computes and every other buffer as the host operations after the region leave it. -/
theorem run_main : θ_run defs (onTc (τ := τ) (main (F := F))) (s₀ m ρ)
    (Pipeline.FramePost cfgs (dats m) 0 (Pipeline.afterTail₀ cfgs (dats m) 0 (V0 m) (post (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := post (F := F)) (hsub := sfx_sub) (hfresh := sfx_fresh) (hkeep := sfx_keeps)
    (hmain := hmain m Variants.none) (hA := A_eq m) (hΦ := fun _ _ => rfl)

/-- What the run's post says of each argument array: it ends as launched. -/
theorem kept_of_post (r : PUnit × MemSt nD τ sig (Elt F))
    (h : Pipeline.FramePost cfgs (dats m) 0 (Pipeline.afterTail₀ cfgs (dats m) 0 (V0 m) (post (F := F))) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10) :=
  ⟨
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c))),
      ((h c).1 6).trans (((dats m 0 c).arrAt_in 6 rfl _).trans ((A_eq m c 6).trans (V_main_arg9 m c))),
      ((h c).1 7).trans (((dats m 0 c).arrAt_in 7 rfl _).trans ((A_eq m c 7).trans (V_main_arg10 m c)))⟩

/-- The frame: the entry function runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => kept_of_post m r h c) (run_main m ρ)

end Cert.KernelIdeal.Hand

end
-- ==== Proof.RIFrame.lean ====
/-
  The frame of `ReferenceIdeal`: its entry function is host operations (the [2000000,3] slab of x, y, t, transposed and
  padded with zeros to [8,2015232]; w1 padded with zero columns to [128,8]), one pipelined region of 128 grid points over
  ten windows, and two host operations after it (a slice back to 2000000 columns and a transpose).  Written over the
  library's run theorem for a region with host lines on both sides: the contents of every buffer when the region is
  entered (`V`), the block of each window at a grid point (`iblk`), what the body leaves in the output window's buffer
  (`outB`: its one store of the body's arithmetic on the nine input blocks), the body's triple, the per-point obligation,
  the run, and the frame claim read off the run's post.  Stated at any float instance.
-/
import proofs.«120418_g2000004916831270_pallasbulk_862_25_alg».proof.Proof.Gen.ReferenceIdeal.Launch
import proofs.«120418_g2000004916831270_pallasbulk_862_25_alg».proof.Proof.Gen.ReferenceIdeal.Skeleton
import proofs.«120418_g2000004916831270_pallasbulk_862_25_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The stretches of host operations before the region, and the one after it. -/
abbrev pre : List (List (HloOp τ sig (Elt F))) := [hostOps0, hostOps0_1, hostOps0_2, hostOps0_3]
abbrev post : List (List (HloOp τ sig (Elt F))) := [hostOps1]

/-- Every buffer's contents on core `c` when the region is entered: the launch contents after the host operations
    before the region. -/
abbrev V0 (c : Dev nD) : Valuation τ sig (Elt F) := StableHlo.after (List.flatten (pre (F := F))) (fun b => m (c, b))
/-- The same, read at a buffer of the core. -/
abbrev V (c : Dev nD) (b : Ref sig .tc) : Buf (Elt F) ((c : Thread nD τ).loc b) := V0 m c (Proc.devRef .tc b)

theorem pre_fresh : (pre (F := F)).Forall fun ops => ops.Forall fun op => op.fresh = ∅ := by
  simp only [List.Forall]; repeat' constructor
theorem post_fresh : (hostOps1 : List (HloOp τ sig (Elt F))).Forall fun op => op.fresh = ∅ := by
  simp only [List.Forall]; repeat' constructor
theorem pre_sub : (pre (F := F)).Forall fun ops => ops.Forall fun op => op.bufs ⊆ StableHlo.tcRefs τ sig := by
  simp only [List.Forall]; exact ⟨hostOps0_sub, hostOps0_1_sub, hostOps0_2_sub, hostOps0_3_sub⟩

/-- The entry function is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) (post (F := F)) pre_sub pre_fresh main_chain

/-- The operations after the region touch only arrays of the region and buffers that bypass it, -/
theorem sfx_sub : ∀ ops ∈ (post (F := F)), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ (post (F := F)), ∀ op ∈ ops, op.fresh = ∅ := by
  intro ops hops op hop
  simp only [List.mem_cons, List.mem_nil_iff, or_false] at hops
  rcases hops with rfl
  exact (List.forall_iff_forall_mem.mp post_fresh) op hop
/-- and write no array of the region: each writes its own result buffer. -/
theorem sfx_keeps : ∀ ops ∈ (post (F := F)), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.nary_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [pre, hostOps0, hostOps0_1, hostOps0_2, hostOps0_3, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation after the region writes argument 0, and the region does not stage it. -/
theorem W_main_arg0 (dats : (p : Fin _) → (c : Dev nD) → Dat τ (Elt F) Unit ℕ (UR sig nD τ) ℕ (cfgs p) c) (c : Dev nD) :
    Pipeline.afterTail₀ cfgs dats 0 (V0 m) (post (F := F)) c main_arg0 = m ((c : Thread nD τ).loc main_arg0) := by
  unfold Pipeline.afterTail₀
  rw [StableHlo.after_of_forall_not_mem (b := Proc.devRef .tc main_arg0) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1, and the region does not stage it. -/
theorem W_main_arg1 (dats : (p : Fin _) → (c : Dev nD) → Dat τ (Elt F) Unit ℕ (UR sig nD τ) ℕ (cfgs p) c) (c : Dev nD) :
    Pipeline.afterTail₀ cfgs dats 0 (V0 m) (post (F := F)) c main_arg1 = m ((c : Thread nD τ).loc main_arg1) := by
  unfold Pipeline.afterTail₀
  rw [StableHlo.after_of_forall_not_mem (b := Proc.devRef .tc main_arg1) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and the region does not stage it. -/
theorem W_main_arg2 (dats : (p : Fin _) → (c : Dev nD) → Dat τ (Elt F) Unit ℕ (UR sig nD τ) ℕ (cfgs p) c) (c : Dev nD) :
    Pipeline.afterTail₀ cfgs dats 0 (V0 m) (post (F := F)) c main_arg2 = m ((c : Thread nD τ).loc main_arg2) := by
  unfold Pipeline.afterTail₀
  rw [StableHlo.after_of_forall_not_mem (b := Proc.devRef .tc main_arg2) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and the region does not stage it. -/
theorem W_main_arg3 (dats : (p : Fin _) → (c : Dev nD) → Dat τ (Elt F) Unit ℕ (UR sig nD τ) ℕ (cfgs p) c) (c : Dev nD) :
    Pipeline.afterTail₀ cfgs dats 0 (V0 m) (post (F := F)) c main_arg3 = m ((c : Thread nD τ).loc main_arg3) := by
  unfold Pipeline.afterTail₀
  rw [StableHlo.after_of_forall_not_mem (b := Proc.devRef .tc main_arg3) _ _ (List.forall_iff_forall_mem.mp (by
      simp only [post, hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is not
    fetched its block index has not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is not
    fetched its block index has not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is not
    fetched its block index has not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: where it is not
    fetched its block index has not moved. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- Each access of the body is of a whole buffer. -/
abbrev rS8x15744 : Rect S8x15744 := Rect.unit (s := S8x15744) ![0, 0] S8x15744.size inb_S8x15744_S8x15744_0_0
abbrev rS128x8 : Rect S128x8 := Rect.unit (s := S128x8) ![0, 0] S128x8.size inb_S128x8_S128x8_0_0
abbrev rS128x1 : Rect S128x1 := Rect.unit (s := S128x1) ![0, 0] S128x1.size inb_S128x1_S128x1_0_0
abbrev rS128x128 : Rect S128x128 := Rect.unit (s := S128x128) ![0, 0] S128x128.size inb_S128x128_S128x128_0_0
abbrev rS2x128 : Rect S2x128 := Rect.unit (s := S2x128) ![0, 0] S2x128.size inb_S2x128_S2x128_0_0
abbrev rS2x1 : Rect S2x1 := Rect.unit (s := S2x1) ![0, 0] S2x1.size inb_S2x1_S2x1_0_0
abbrev rS2x15744 : Rect S2x15744 := Rect.unit (s := S2x15744) ![0, 0] S2x15744.size inb_S2x15744_S2x15744_0_0

/-- What the body leaves in the output window's buffer, from the input blocks: its one store, of the body's
    arithmetic on the blocks as loaded whole. -/
def outB (x0 : Vec F S8x15744 .f32) (x1 : Vec F S128x8 .f32) (x2 : Vec F S128x1 .f32) (x3 : Vec F S128x128 .f32) (x4 : Vec F S128x1 .f32) (x5 : Vec F S128x128 .f32) (x6 : Vec F S128x1 .f32) (x7 : Vec F S2x128 .f32) (x8 : Vec F S2x1 .f32) : Vec F S2x15744 .f32 :=
  View.canon [⟨rS2x15744, k0_pay1 (View.ld x1 rS128x8) (View.ld x0 rS8x15744) (View.ld x2 rS128x1) (View.ld x3 rS128x128) (View.ld x4 rS128x1) (View.ld x5 rS128x128) (View.ld x6 rS128x1) (View.ld x7 rS2x128) (View.ld x8 rS2x1)⟩]

/-- The one store fills the buffer. -/
theorem coverB (p0 : Vec F S2x15744 .f32) (y : S2x15744.Idx) :
    ∃ pc ∈ ([⟨rS2x15744, p0⟩] : List (View.Piece (Elt F) S2x15744 .f32)), y ∈ pc.1.set :=
  View.cover_of_tiled [⟨rS2x15744, p0⟩] S2x15744.size (by rfl) y

set_option maxHeartbeats 4000000 in
/-- The body on whole staging buffers, the inputs' holding `xW` and the output's anything, runs to the end leaving the
    inputs' as they were and the output's at `outB` of the inputs'. -/
theorem sound_kernel (c : Dev nD) (E : Set ℕ) (i : grid0.Coords)
    (arg1 : Memref sig .tc .vmem S8x15744 .f32) (harg1 : arg1.IsWhole)
    (arg2 : Memref sig .tc .vmem S128x8 .f32) (harg2 : arg2.IsWhole)
    (arg3 : Memref sig .tc .vmem S128x1 .f32) (harg3 : arg3.IsWhole)
    (arg4 : Memref sig .tc .vmem S128x128 .f32) (harg4 : arg4.IsWhole)
    (arg5 : Memref sig .tc .vmem S128x1 .f32) (harg5 : arg5.IsWhole)
    (arg6 : Memref sig .tc .vmem S128x128 .f32) (harg6 : arg6.IsWhole)
    (arg7 : Memref sig .tc .vmem S128x1 .f32) (harg7 : arg7.IsWhole)
    (arg8 : Memref sig .tc .vmem S2x128 .f32) (harg8 : arg8.IsWhole)
    (arg9 : Memref sig .tc .vmem S2x1 .f32) (harg9 : arg9.IsWhole)
    (arg10 : Memref sig .tc .vmem S2x15744 .f32) (harg10 : arg10.IsWhole)
    (x0 : Vec F S8x15744 .f32) (x1 : Vec F S128x8 .f32) (x2 : Vec F S128x1 .f32) (x3 : Vec F S128x128 .f32) (x4 : Vec F S128x1 .f32) (x5 : Vec F S128x128 .f32) (x6 : Vec F S128x1 .f32) (x7 : Vec F S2x128 .f32) (x8 : Vec F S2x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outB x0 x1 x2 x3 x4 x5 x6 x7 x8)) -∗ K ⟨⟩))
      ⊢ wp frame (wpE (defs₀ (F := F)) Variants.none c none) E
          (cc0_mlp_kernel i arg1 harg1 arg2 harg2 arg3 harg3 arg4 harg4 arg5 harg5 arg6 harg6 arg7 harg7 arg8 harg8 arg9 harg9 arg10 harg10) K := by
  simp only [cc0_mlp_kernel_eq_skeleton]; unfold cc0_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (coverB _)

/-! ## The proof data -/

/-- On core `c`: the arrays as the region finds them; after the body at point `t` each input's buffer at its block and the
    output's at `outB` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outB (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem afterOut (c : Dev nD) (t : Fin cfg0.N) : (dats m 0 c).after 9 t
    = outB (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, afterOut]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function ends, nothing faulting, with every array of the region at what the
    proof data computes and every other buffer as the host operations after the region leave it. -/
theorem run_main : θ_run defs (onTc (τ := τ) (main (F := F))) (s₀ m ρ)
    (Pipeline.FramePost cfgs (dats m) 0 (Pipeline.afterTail₀ cfgs (dats m) 0 (V0 m) (post (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := post (F := F)) (hsub := sfx_sub) (hfresh := sfx_fresh) (hkeep := sfx_keeps)
    (hmain := hmain m Variants.none) (hA := A_eq m) (hΦ := fun _ _ => rfl)

/-- What the run's post says of each argument array: it ends as launched. -/
theorem kept_of_post (r : PUnit × MemSt nD τ sig (Elt F))
    (h : Pipeline.FramePost cfgs (dats m) 0 (Pipeline.afterTail₀ cfgs (dats m) 0 (V0 m) (post (F := F))) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10) :=
  ⟨
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c)))⟩

/-- The frame: the entry function runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => kept_of_post m r h c) (run_main m ρ)

end Cert.ReferenceIdeal.Hand

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Mlp.lean ====
/-
  The network both programs compute, on the extended reals, and the two forms its first layer takes.

  For a point n the input column is (x n, y n, t n).  The first hidden layer is
      h1 j = tanh (w1 j 0 · x n + w1 j 1 · y n + w1 j 2 · t n + b1 j),
  the next two are  h' j = tanh (Σ_k w j k · h k + b j)  and the result is  o d = Σ_k w4 d k · h3 k + b4 d.
  One program feeds the first layer a column of FOUR entries (x, y, t, 1) against the matrix (w1 | b1): the bias enters as
  the fourth product b1 j · 1.  The other feeds it EIGHT entries (x, y, t, 0, 0, 0, 0, 0) against (w1 | 0 … 0) and adds
  b1 j afterwards: the five extra products are 0 · 0.  Both are the sum above (`first4`, `first8`): a sum over four or
  eight terms written out, 1 a right unit and 0 · 0 = 0 on the extended reals — no finiteness is needed.

  The layers after the first are the same text in both programs, on blocks of T points at a time; `tailVec` is that text
  on [·, T] arrays and `tailVec_apply` reads it at an index as the scalar `tail` of the block's column.
-/
import Idealize.ShloMosaic.PureOps.Ideal.Laws
import Idealize.ShloMosaic.Lib.ValueIdx
import Idealize.ShloMosaic.Lib.Pipeline.Value
import proofs.«120418_g2000004916831270_pallasbulk_862_25_alg».proof.Proof.LibPlainDot
import proofs.«120418_g2000004916831270_pallasbulk_862_25_alg».proof.Proof.LibColumn

noncomputable section

namespace Cert.Mlp

open Idealize.ShloMosaic Idealize.ShloMosaic.ValueIdx

/-! ## On scalars -/

/-- The first layer before its activation, at hidden unit j, from the three inputs of a point. -/
def first (w1 : (⟨2, ![128, 3]⟩ : Shape).Idx → EReal) (b1 : (⟨2, ![128, 1]⟩ : Shape).Idx → EReal) (x y t : EReal) (j : Fin 128) : EReal :=
  w1 (ix2 j 0) * x + w1 (ix2 j 1) * y + w1 (ix2 j 2) * t + b1 (ix2 j 0)

/-- The layers after the first, from the first layer's values before activation: two hidden layers and the output layer. -/
def tail (w2 : (⟨2, ![128, 128]⟩ : Shape).Idx → EReal) (b2 : (⟨2, ![128, 1]⟩ : Shape).Idx → EReal)
    (w3 : (⟨2, ![128, 128]⟩ : Shape).Idx → EReal) (b3 : (⟨2, ![128, 1]⟩ : Shape).Idx → EReal)
    (w4 : (⟨2, ![2, 128]⟩ : Shape).Idx → EReal) (b4 : (⟨2, ![2, 1]⟩ : Shape).Idx → EReal) (p : Fin 128 → EReal) (d : Fin 2) : EReal :=
  (∑ k : Fin 128, w4 (ix2 d k) * Ideal.tanh ((∑ k' : Fin 128, w3 (ix2 k k') * Ideal.tanh ((∑ k'' : Fin 128, w2 (ix2 k' k'') * Ideal.tanh (p k'')) + b2 (ix2 k' 0))) + b3 (ix2 k 0))) + b4 (ix2 d 0)

/-- The whole network as one function of the eleven argument arrays: entry (n, d) of the [2000000, 2] result. -/
def net (x y t : (⟨2, ![2000000, 1]⟩ : Shape).Idx → EReal) (w1 : (⟨2, ![128, 3]⟩ : Shape).Idx → EReal) (b1 : (⟨2, ![128, 1]⟩ : Shape).Idx → EReal)
    (w2 : (⟨2, ![128, 128]⟩ : Shape).Idx → EReal) (b2 : (⟨2, ![128, 1]⟩ : Shape).Idx → EReal)
    (w3 : (⟨2, ![128, 128]⟩ : Shape).Idx → EReal) (b3 : (⟨2, ![128, 1]⟩ : Shape).Idx → EReal)
    (w4 : (⟨2, ![2, 128]⟩ : Shape).Idx → EReal) (b4 : (⟨2, ![2, 1]⟩ : Shape).Idx → EReal) : (⟨2, ![2000000, 2]⟩ : Shape).Idx → EReal :=
  fun i => tail w2 b2 w3 b3 w4 b4 (first w1 b1 (x (ix2 (i 0) 0)) (y (ix2 (i 0) 0)) (t (ix2 (i 0) 0))) (i 1)

/-- Four products, the fourth the bias against 1. -/
theorem first4 (a : Fin 4 → EReal) (u : Fin 4 → EReal) (w0 w1 w2 β x y t : EReal)
    (ha0 : a 0 = w0) (ha1 : a 1 = w1) (ha2 : a 2 = w2) (ha3 : a 3 = β)
    (hu0 : u 0 = x) (hu1 : u 1 = y) (hu2 : u 2 = t) (hu3 : u 3 = 1) :
    ∑ k : Fin 4, a k * u k = w0 * x + w1 * y + w2 * t + β := by
  rw [Fin.sum_univ_four, ha0, ha1, ha2, ha3, hu0, hu1, hu2, hu3, mul_one]

/-- Eight products, the last five 0 · 0, and the bias added after. -/
theorem first8 (a : Fin 8 → EReal) (u : Fin 8 → EReal) (w0 w1 w2 β x y t : EReal)
    (ha0 : a 0 = w0) (ha1 : a 1 = w1) (ha2 : a 2 = w2) (ha : ∀ k : Fin 8, 3 ≤ k.val → a k = 0)
    (hu0 : u 0 = x) (hu1 : u 1 = y) (hu2 : u 2 = t) (hu : ∀ k : Fin 8, 3 ≤ k.val → u k = 0) :
    (∑ k : Fin 8, a k * u k) + β = w0 * x + w1 * y + w2 * t + β := by
  rw [Fin.sum_univ_eight, ha0, ha1, ha2, hu0, hu1, hu2, ha 3 (by decide), ha 4 (by decide), ha 5 (by decide), ha 6 (by decide),
    ha 7 (by decide), hu 3 (by decide), hu 4 (by decide), hu 5 (by decide), hu 6 (by decide), hu 7 (by decide)]
  simp only [mul_zero, add_zero]

/-! ## On blocks of T points -/

variable (T : ℕ)

/-- One dense layer on a block, read at an index: row j of the matrix against column q of the block, plus the bias. -/
theorem layer_apply (M K : ℕ) (W : FVec Ideal ⟨2, ![M, K]⟩ .f32) (β : FVec Ideal ⟨2, ![M, 1]⟩ .f32) (h : FVec Ideal ⟨2, ![K, T]⟩ .f32)
    (hb : (⟨2, ![M, 1]⟩ : Shape).Broadcasts ⟨2, ![M, T]⟩) (j : Fin M) (q : Fin T) :
    addf (matmul (F := Ideal) (DotDims.plain M K T) none W h (constant ⟨2, ![M, T]⟩ .f32 0x00000000#32)) (broadcastTo ⟨2, ![M, T]⟩ β hb) (ix2 j q)
      = (∑ k : Fin K, W (ix2 j k) * h (ix2 k q)) + β (ix2 j 0) := by
  rw [addf_apply, LibPlainDot.matmul_plain, LibColumn.broadcastTo_a1_ab_apply]
  rfl

/-- The layers after the first as the programs spell them on a block: product into a zero accumulator, bias column
    repeated along the block, tanh; twice; then the output layer. `h1` is the first layer AFTER its activation. -/
def tailVec (w2 : FVec Ideal ⟨2, ![128, 128]⟩ .f32) (b2 : FVec Ideal ⟨2, ![128, 1]⟩ .f32)
    (w3 : FVec Ideal ⟨2, ![128, 128]⟩ .f32) (b3 : FVec Ideal ⟨2, ![128, 1]⟩ .f32)
    (w4 : FVec Ideal ⟨2, ![2, 128]⟩ .f32) (b4 : FVec Ideal ⟨2, ![2, 1]⟩ .f32) (h1 : FVec Ideal ⟨2, ![128, T]⟩ .f32)
    (hb : (⟨2, ![128, 1]⟩ : Shape).Broadcasts ⟨2, ![128, T]⟩) (hb4 : (⟨2, ![2, 1]⟩ : Shape).Broadcasts ⟨2, ![2, T]⟩) : FVec Ideal ⟨2, ![2, T]⟩ .f32 :=
  addf (matmul (F := Ideal) (DotDims.plain 2 128 T) none w4
      (tanh (addf (matmul (F := Ideal) (DotDims.plain 128 128 T) none w3
          (tanh (addf (matmul (F := Ideal) (DotDims.plain 128 128 T) none w2 h1 (constant ⟨2, ![128, T]⟩ .f32 0x00000000#32))
            (broadcastTo ⟨2, ![128, T]⟩ b2 hb)))
          (constant ⟨2, ![128, T]⟩ .f32 0x00000000#32)) (broadcastTo ⟨2, ![128, T]⟩ b3 hb)))
      (constant ⟨2, ![2, T]⟩ .f32 0x00000000#32)) (broadcastTo ⟨2, ![2, T]⟩ b4 hb4)

/-- Read at (d, q), the block form is the scalar form on column q: `p` is the first layer before its activation there. -/
theorem tailVec_apply (w2 : FVec Ideal ⟨2, ![128, 128]⟩ .f32) (b2 : FVec Ideal ⟨2, ![128, 1]⟩ .f32)
    (w3 : FVec Ideal ⟨2, ![128, 128]⟩ .f32) (b3 : FVec Ideal ⟨2, ![128, 1]⟩ .f32)
    (w4 : FVec Ideal ⟨2, ![2, 128]⟩ .f32) (b4 : FVec Ideal ⟨2, ![2, 1]⟩ .f32) (pre1 : FVec Ideal ⟨2, ![128, T]⟩ .f32)
    (hb : (⟨2, ![128, 1]⟩ : Shape).Broadcasts ⟨2, ![128, T]⟩) (hb4 : (⟨2, ![2, 1]⟩ : Shape).Broadcasts ⟨2, ![2, T]⟩)
    (p : Fin 128 → EReal) (d : Fin 2) (q : Fin T) (hp : ∀ j : Fin 128, pre1 (ix2 j q) = p j) :
    tailVec T w2 b2 w3 b3 w4 b4 (tanh pre1) hb hb4 (ix2 d q) = tail w2 b2 w3 b3 w4 b4 p d := by
  unfold tailVec tail
  refine (layer_apply T 2 128 w4 b4 _ hb4 d q).trans ?_
  refine congrArg (· + b4 (ix2 d 0)) (Finset.sum_congr rfl fun k _ => congrArg (w4 (ix2 d k) * ·) ?_)
  refine congrArg Ideal.tanh ((layer_apply T 128 128 w3 b3 _ hb k q).trans ?_)
  refine congrArg (· + b3 (ix2 k 0)) (Finset.sum_congr rfl fun k' _ => congrArg (w3 (ix2 k k') * ·) ?_)
  refine congrArg Ideal.tanh ((layer_apply T 128 128 w2 b2 _ hb k' q).trans ?_)
  refine congrArg (· + b2 (ix2 k' 0)) (Finset.sum_congr rfl fun k'' _ => congrArg (w2 (ix2 k' k'') * ·) ?_)
  exact congrArg Ideal.tanh (hp k'')

end Cert.Mlp

end
-- ==== Proof.KIValue.lean ====
/-
  What the idealized kernel's result array holds, as one function of the eleven argument arrays.

  Before the region the entry function builds two arrays: the [4, 2000000] slab whose rows are x, y, t and a row of ones
  (`slab0` … `slab3`), and the [128, 4] matrix whose first three columns are w1 and whose fourth is b1 (`w1b_left`,
  `w1b_right`).  At grid point p the body is handed columns 16000·p … 16000·p + 15999 of the slab (`iblk0_apply`) and all of
  every other input array (`iblkW_eq`); its one store, read at (d, q), is the network's layers after the first applied to
  the four-term sums of the matrix against the slab's column (`pay_apply`), and those sums are the first layer of the
  network at point 16000·p + q (`Mlp.first4`).  So point p writes back block p of the [2, 2000000] array whose entry
  (d, n) is the network at point n, output d (`flushed_eq`); the 125 blocks fill that array (`cover`), and the transpose
  after the region makes it the [2000000, 2] result (`result_eq`); the changes of float format are the identity.
-/
import proofs.«120418_g2000004916831270_pallasbulk_862_25_alg».proof.Proof.KIFrame
import proofs.«120418_g2000004916831270_pallasbulk_862_25_alg».proof.Proof.Mlp
import Idealize.ShloMosaic.Lib.Pipeline.Value
import Idealize.ShloMosaic.Lib.StableHlo.Run
import Idealize.ShloMosaic.Lib.KernelVsHost
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open Idealize.ShloMosaic.StableHlo

variable (m : (ℓ : Loc nD τ sig) → Buf (Elt Ideal) ℓ) (ρ : Dev nD → PrngReg)

/-! ## The two arrays built before the region -/

/-- Row 0 of the slab is x. -/
theorem slab0 (c : Dev nD) (n : Fin 2000000) :
    (V m c main_v3 : S4x2000000.Idx → EReal) (ix2 (0 : Fin 4) n) = (m ((c : Thread nD τ).loc main_arg0) : S2000000x1.Idx → EReal) (ix2 n 0) := by
  dsimp only [V, V0, pre]
  simp only [hostOps0, hostOps0_1, hostOps0_2, List.flatten_cons, List.flatten_nil, List.append_nil, List.cons_append, List.nil_append]
  after_results
  simp only [StableHlo.TRef.toBuf, StableHlo.TRef.ofBuf, cast_eq]
  refine (pad_apply_of_inside _ _ _ _ _ _ _ (ix2 (0 : Fin 4) n) (ix2 (0 : Fin 4) n) (fun ax => ?_)).trans ?_
  · match ax with
    | ⟨0, _⟩ => rfl
    | ⟨1, _⟩ => show n.val = 0 + n.val * (0 + 1); omega
  refine (transpose_apply [1, 0] _ _ (ix2 (0 : Fin 4) n) (ix2 n (0 : Fin 4)) (fun b => ?_)).trans ?_
  · match b with
    | ⟨0, _⟩ => rfl
    | ⟨1, _⟩ => rfl
  refine Eq.trans (concatenate_apply_piece (1 : Fin 2) _ _ (ix2 n (0 : Fin 4)) 0 ?_ S2000000x1 _ rfl rfl 0 rfl (ix2 n (0 : Fin 1)) (fun b hb => ?_) rfl) ?_
  · exact (by decide : (0:ℕ) < 4)
  · match b with
    | ⟨0, _⟩ => rfl
    | ⟨1, _⟩ => exact absurd rfl hb
  show (StableHlo.unary main_cst main_v0 _ _ _).result ((StableHlo.nullary main_cst _ _).result fun b => m (c, b)) (Proc.devRef .tc main_arg0) (ix2 n 0) = _
  repeat (first | rw [unary_result] | rw [nullary_result] | (rw [unary_result_ne]; rotate_left; decide) | (rw [nullary_result_ne]; rotate_left; decide))

/-- Row 1 of the slab is y. -/
theorem slab1 (c : Dev nD) (n : Fin 2000000) :
    (V m c main_v3 : S4x2000000.Idx → EReal) (ix2 (1 : Fin 4) n) = (m ((c : Thread nD τ).loc main_arg1) : S2000000x1.Idx → EReal) (ix2 n 0) := by
  dsimp only [V, V0, pre]
  simp only [hostOps0, hostOps0_1, hostOps0_2, List.flatten_cons, List.flatten_nil, List.append_nil, List.cons_append, List.nil_append]
  after_results
  simp only [StableHlo.TRef.toBuf, StableHlo.TRef.ofBuf, cast_eq]
  refine (pad_apply_of_inside _ _ _ _ _ _ _ (ix2 (1 : Fin 4) n) (ix2 (1 : Fin 4) n) (fun ax => ?_)).trans ?_
  · match ax with
    | ⟨0, _⟩ => rfl
    | ⟨1, _⟩ => show n.val = 0 + n.val * (0 + 1); omega
  refine (transpose_apply [1, 0] _ _ (ix2 (1 : Fin 4) n) (ix2 n (1 : Fin 4)) (fun b => ?_)).trans ?_
  · match b with
    | ⟨0, _⟩ => rfl
    | ⟨1, _⟩ => rfl
  refine Eq.trans (concatenate_apply_piece (1 : Fin 2) _ _ (ix2 n (1 : Fin 4)) 1 ?_ S2000000x1 _ rfl rfl 1 rfl (ix2 n (0 : Fin 1)) (fun b hb => ?_) rfl) ?_
  · exact (by decide : (1:ℕ) < 4)
  · match b with
    | ⟨0, _⟩ => rfl
    | ⟨1, _⟩ => exact absurd rfl hb
  show (StableHlo.unary main_cst main_v0 _ _ _).result ((StableHlo.nullary main_cst _ _).result fun b => m (c, b)) (Proc.devRef .tc main_arg1) (ix2 n 0) = _
  repeat (first | rw [unary_result] | rw [nullary_result] | (rw [unary_result_ne]; rotate_left; decide) | (rw [nullary_result_ne]; rotate_left; decide))

/-- Row 2 of the slab is t. -/
theorem slab2 (c : Dev nD) (n : Fin 2000000) :
    (V m c main_v3 : S4x2000000.Idx → EReal) (ix2 (2 : Fin 4) n) = (m ((c : Thread nD τ).loc main_arg2) : S2000000x1.Idx → EReal) (ix2 n 0) := by
  dsimp only [V, V0, pre]
  simp only [hostOps0, hostOps0_1, hostOps0_2, List.flatten_cons, List.flatten_nil, List.append_nil, List.cons_append, List.nil_append]
  after_results
  simp only [StableHlo.TRef.toBuf, StableHlo.TRef.ofBuf, cast_eq]
  refine (pad_apply_of_inside _ _ _ _ _ _ _ (ix2 (2 : Fin 4) n) (ix2 (2 : Fin 4) n) (fun ax => ?_)).trans ?_
  · match ax with
    | ⟨0, _⟩ => rfl
    | ⟨1, _⟩ => show n.val = 0 + n.val * (0 + 1); omega
  refine (transpose_apply [1, 0] _ _ (ix2 (2 : Fin 4) n) (ix2 n (2 : Fin 4)) (fun b => ?_)).trans ?_
  · match b with
    | ⟨0, _⟩ => rfl
    | ⟨1, _⟩ => rfl
  refine Eq.trans (concatenate_apply_piece (1 : Fin 2) _ _ (ix2 n (2 : Fin 4)) 2 ?_ S2000000x1 _ rfl rfl 2 rfl (ix2 n (0 : Fin 1)) (fun b hb => ?_) rfl) ?_
  · exact (by decide : (2:ℕ) < 4)
  · match b with
    | ⟨0, _⟩ => rfl
    | ⟨1, _⟩ => exact absurd rfl hb
  show (StableHlo.unary main_cst main_v0 _ _ _).result ((StableHlo.nullary main_cst _ _).result fun b => m (c, b)) (Proc.devRef .tc main_arg2) (ix2 n 0) = _
  repeat (first | rw [unary_result] | rw [nullary_result] | (rw [unary_result_ne]; rotate_left; decide) | (rw [nullary_result_ne]; rotate_left; decide))

/-- Row 3 of the slab is ones. -/
theorem slab3 (c : Dev nD) (n : Fin 2000000) :
    (V m c main_v3 : S4x2000000.Idx → EReal) (ix2 (3 : Fin 4) n) = (1 : EReal) := by
  dsimp only [V, V0, pre]
  simp only [hostOps0, hostOps0_1, hostOps0_2, List.flatten_cons, List.flatten_nil, List.append_nil, List.cons_append, List.nil_append]
  after_results
  simp only [StableHlo.TRef.toBuf, StableHlo.TRef.ofBuf, cast_eq]
  refine (pad_apply_of_inside _ _ _ _ _ _ _ (ix2 (3 : Fin 4) n) (ix2 (3 : Fin 4) n) (fun ax => ?_)).trans ?_
  · match ax with
    | ⟨0, _⟩ => rfl
    | ⟨1, _⟩ => show n.val = 0 + n.val * (0 + 1); omega
  refine (transpose_apply [1, 0] _ _ (ix2 (3 : Fin 4) n) (ix2 n (3 : Fin 4)) (fun b => ?_)).trans ?_
  · match b with
    | ⟨0, _⟩ => rfl
    | ⟨1, _⟩ => rfl
  refine Eq.trans (concatenate_apply_piece (1 : Fin 2) _ _ (ix2 n (3 : Fin 4)) 3 ?_ S2000000x1 _ rfl rfl 3 rfl (ix2 n (0 : Fin 1)) (fun b hb => ?_) rfl) ?_
  · exact (by decide : (3:ℕ) < 4)
  · match b with
    | ⟨0, _⟩ => rfl
    | ⟨1, _⟩ => exact absurd rfl hb
  show (StableHlo.unary main_cst main_v0 _ _ _).result ((StableHlo.nullary main_cst _ _).result fun b => m (c, b)) (Proc.devRef .tc main_v0) (ix2 n 0) = _
  repeat (first | rw [unary_result] | rw [nullary_result] | (rw [unary_result_ne]; rotate_left; decide) | (rw [nullary_result_ne]; rotate_left; decide))
  show Ideal.ofBits .f32 0x3F800000#32 = 1
  simp [Ideal.ofBits, Ideal.ieee, -EReal.coe_mul]; norm_num

/-- The first three columns of the [128, 4] matrix are w1. -/
theorem w1b_left (c : Dev nD) (j : Fin 128) (a : Fin 3) :
    (V m c main_v4 : S128x4.Idx → EReal) (ix2 j (Fin.castSucc a)) = (m ((c : Thread nD τ).loc main_arg3) : S128x3.Idx → EReal) (ix2 j a) := by
  dsimp only [V, V0, pre]
  simp only [hostOps0, hostOps0_1, hostOps0_2, List.flatten_cons, List.flatten_nil, List.append_nil, List.cons_append, List.nil_append]
  after_results
  refine Eq.trans (concatenate_apply_piece (1 : Fin 2) _ _ (ix2 j (Fin.castSucc a)) 0 ?_ S128x3 _ rfl rfl 0 rfl (ix2 j a) (fun b hb => ?_) ?_) ?_
  · exact (by decide : (0:ℕ) < 2)
  · match b with
    | ⟨0, _⟩ => rfl
    | ⟨1, _⟩ => exact absurd rfl hb
  · show 0 + a.val = a.val; omega
  rfl

/-- Its fourth column is b1. -/
theorem w1b_right (c : Dev nD) (j : Fin 128) :
    (V m c main_v4 : S128x4.Idx → EReal) (ix2 j (3 : Fin 4)) = (m ((c : Thread nD τ).loc main_arg4) : S128x1.Idx → EReal) (ix2 j 0) := by
  dsimp only [V, V0, pre]
  simp only [hostOps0, hostOps0_1, hostOps0_2, List.flatten_cons, List.flatten_nil, List.append_nil, List.cons_append, List.nil_append]
  after_results
  refine Eq.trans (concatenate_apply_piece (1 : Fin 2) _ _ (ix2 j (3 : Fin 4)) 1 ?_ S128x1 _ rfl rfl 3 rfl (ix2 j (0 : Fin 1)) (fun b hb => ?_) rfl) ?_
  · exact (by decide : (1:ℕ) < 2)
  · match b with
    | ⟨0, _⟩ => rfl
    | ⟨1, _⟩ => exact absurd rfl hb
  rfl

/-! ## The windows' blocks as parts of the arrays -/

theorem idx0 : ∀ t : Fin cfg0.N, win0_0.index t (0 : Fin 2) = 0 ∧ win0_0.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)

/-- Column q of window 0's block at point p is column 16000·p + q of the slab. -/
theorem iblk0_apply (c : Dev nD) (t : Fin cfg0.N) (k : Fin 4) (q : Fin 16000) (n : Fin 2000000) (hn : n.val = t.val * 16000 + q.val) :
    (iblk m c 0 t : S4x16000.Idx → EReal) (ix2 k q) = (V m c main_v3 : S4x2000000.Idx → EReal) (ix2 k n) := by
  obtain ⟨e0, e1⟩ := idx0 t
  unfold iblk
  rw [View.read_apply]
  show V m c main_v3 _ = V m c main_v3 _
  congr 1
  funext a
  apply Fin.ext
  match a with
  | ⟨0, _⟩ => show win0_0.index t (0 : Fin 2) * 4 + 1 * k.val = k.val; rw [e0]; omega
  | ⟨1, _⟩ => show win0_0.index t (1 : Fin 2) * 16000 + 1 * q.val = n.val; rw [e1, hn]; omega

theorem idx1 : ∀ t : Fin cfg0.N, win0_1.index t (0 : Fin 2) = 0 ∧ win0_1.index t (1 : Fin 2) = 0 :=
  (by decide +kernel : ∀ t : Fin grid0.N, _)
/-- Window 1's block at every point is all of its array. -/
theorem iblk1_eq (c : Dev nD) (t : Fin cfg0.N) : (iblk m c 1 t : S128x4.Idx → EReal) = (V m c main_v4 : S128x4.Idx → EReal) := by
  obtain ⟨e0, e1⟩ := idx1 t
  funext y
  unfold iblk
  rw [View.read_apply]
  show V m c main_v4 _ = V m c main_v4 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 4 + 1 * (y 1).val = (y 1).val; rw [e1]; omega

theorem idx2 : ∀ t : Fin cfg0.N, win0_2.index t (0 : Fin 2) = 0 ∧ win0_2.index t (1 : Fin 2) = 0 :=
  (by decide +kernel : ∀ t : Fin grid0.N, _)
/-- Window 2's block at every point is all of its array. -/
theorem iblk2_eq (c : Dev nD) (t : Fin cfg0.N) : (iblk m c 2 t : S128x128.Idx → EReal) = (V m c main_arg5 : S128x128.Idx → EReal) := by
  obtain ⟨e0, e1⟩ := idx2 t
  funext y
  unfold iblk
  rw [View.read_apply]
  show V m c main_arg5 _ = V m c main_arg5 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem idx3 : ∀ t : Fin cfg0.N, win0_3.index t (0 : Fin 2) = 0 ∧ win0_3.index t (1 : Fin 2) = 0 :=
  (by decide +kernel : ∀ t : Fin grid0.N, _)
/-- Window 3's block at every point is all of its array. -/
theorem iblk3_eq (c : Dev nD) (t : Fin cfg0.N) : (iblk m c 3 t : S128x1.Idx → EReal) = (V m c main_arg6 : S128x1.Idx → EReal) := by
  obtain ⟨e0, e1⟩ := idx3 t
  funext y
  unfold iblk
  rw [View.read_apply]
  show V m c main_arg6 _ = V m c main_arg6 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 1 + 1 * (y 1).val = (y 1).val; rw [e1]; omega

theorem idx4 : ∀ t : Fin cfg0.N, win0_4.index t (0 : Fin 2) = 0 ∧ win0_4.index t (1 : Fin 2) = 0 :=
  (by decide +kernel : ∀ t : Fin grid0.N, _)
/-- Window 4's block at every point is all of its array. -/
theorem iblk4_eq (c : Dev nD) (t : Fin cfg0.N) : (iblk m c 4 t : S128x128.Idx → EReal) = (V m c main_arg7 : S128x128.Idx → EReal) := by
  obtain ⟨e0, e1⟩ := idx4 t
  funext y
  unfold iblk
  rw [View.read_apply]
  show V m c main_arg7 _ = V m c main_arg7 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem idx5 : ∀ t : Fin cfg0.N, win0_5.index t (0 : Fin 2) = 0 ∧ win0_5.index t (1 : Fin 2) = 0 :=
  (by decide +kernel : ∀ t : Fin grid0.N, _)
/-- Window 5's block at every point is all of its array. -/
theorem iblk5_eq (c : Dev nD) (t : Fin cfg0.N) : (iblk m c 5 t : S128x1.Idx → EReal) = (V m c main_arg8 : S128x1.Idx → EReal) := by
  obtain ⟨e0, e1⟩ := idx5 t
  funext y
  unfold iblk
  rw [View.read_apply]
  show V m c main_arg8 _ = V m c main_arg8 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 1 + 1 * (y 1).val = (y 1).val; rw [e1]; omega

theorem idx6 : ∀ t : Fin cfg0.N, win0_6.index t (0 : Fin 2) = 0 ∧ win0_6.index t (1 : Fin 2) = 0 :=
  (by decide +kernel : ∀ t : Fin grid0.N, _)
/-- Window 6's block at every point is all of its array. -/
theorem iblk6_eq (c : Dev nD) (t : Fin cfg0.N) : (iblk m c 6 t : S2x128.Idx → EReal) = (V m c main_arg9 : S2x128.Idx → EReal) := by
  obtain ⟨e0, e1⟩ := idx6 t
  funext y
  unfold iblk
  rw [View.read_apply]
  show V m c main_arg9 _ = V m c main_arg9 y
  congr 1
  funext a
  apply Fin.ext
  match a with
  | ⟨0, _⟩ => show win0_6.index t (0 : Fin 2) * 2 + 1 * (y 0).val = (y 0).val; rw [e0]; omega
  | ⟨1, _⟩ => show win0_6.index t (1 : Fin 2) * 128 + 1 * (y 1).val = (y 1).val; rw [e1]; omega

theorem idx7 : ∀ t : Fin cfg0.N, win0_7.index t (0 : Fin 2) = 0 ∧ win0_7.index t (1 : Fin 2) = 0 :=
  (by decide +kernel : ∀ t : Fin grid0.N, _)
/-- Window 7's block at every point is all of its array. -/
theorem iblk7_eq (c : Dev nD) (t : Fin cfg0.N) : (iblk m c 7 t : S2x1.Idx → EReal) = (V m c main_arg10 : S2x1.Idx → EReal) := by
  obtain ⟨e0, e1⟩ := idx7 t
  funext y
  unfold iblk
  rw [View.read_apply]
  show V m c main_arg10 _ = V m c main_arg10 y
  congr 1
  funext a
  apply Fin.ext
  match a with
  | ⟨0, _⟩ => show win0_7.index t (0 : Fin 2) * 2 + 1 * (y 0).val = (y 0).val; rw [e0]; omega
  | ⟨1, _⟩ => show win0_7.index t (1 : Fin 2) * 1 + 1 * (y 1).val = (y 1).val; rw [e1]; omega

/-! ## The body's store, read at an index -/

theorem hz : (![0, 0] : Fin 2 → Nat) = fun _ => 0 := funext fun a => by fin_cases a <;> rfl

/-- The body's arithmetic at (d, q): the layers after the first, on the four-term sums of the matrix's rows against
    column q of the slab's block. -/
theorem pay_apply (x0 : Vec Ideal S4x16000 .f32) (x1 : Vec Ideal S128x4 .f32) (x2 : Vec Ideal S128x128 .f32) (x3 : Vec Ideal S128x1 .f32)
    (x4 : Vec Ideal S128x128 .f32) (x5 : Vec Ideal S128x1 .f32) (x6 : Vec Ideal S2x128 .f32) (x7 : Vec Ideal S2x1 .f32) (d : Fin 2) (q : Fin 16000) :
    (k0_pay1 (F := Ideal) x1 x0 x2 x3 x4 x5 x6 x7 : S2x16000.Idx → EReal) (ix2 d q)
      = Mlp.tail x2 x3 x4 x5 x6 x7 (fun j => ∑ k : Fin 4, x1 (ix2 j k) * x0 (ix2 k q)) d := by
  unfold k0_pay1
  rw [shapeCast_self, shapeCast_self]
  exact Mlp.tailVec_apply 16000 x2 x3 x4 x5 x6 x7 (matmul (F := Ideal) (DotDims.plain 128 4 16000) none x1 x0 (constant _ .f32 0x00000000#32)) _ _
    (fun j => ∑ k : Fin 4, x1 (ix2 j k) * x0 (ix2 k q)) d q (fun j => LibPlainDot.matmul_plain 128 4 16000 none x1 x0 (ix2 j q))

/-- The same with the blocks named as parts of the arrays: the network at point n, output d. -/
theorem blk_value (x0 : Vec Ideal S4x16000 .f32) (x1 : Vec Ideal S128x4 .f32) (x2 : Vec Ideal S128x128 .f32) (x3 : Vec Ideal S128x1 .f32)
    (x4 : Vec Ideal S128x128 .f32) (x5 : Vec Ideal S128x1 .f32) (x6 : Vec Ideal S2x128 .f32) (x7 : Vec Ideal S2x1 .f32) (d : Fin 2) (q : Fin 16000)
    (X Y Tm : (⟨2, ![2000000, 1]⟩ : Shape).Idx → EReal) (W1 : (⟨2, ![128, 3]⟩ : Shape).Idx → EReal) (B1 : (⟨2, ![128, 1]⟩ : Shape).Idx → EReal)
    (W2 : (⟨2, ![128, 128]⟩ : Shape).Idx → EReal) (B2 : (⟨2, ![128, 1]⟩ : Shape).Idx → EReal)
    (W3 : (⟨2, ![128, 128]⟩ : Shape).Idx → EReal) (B3 : (⟨2, ![128, 1]⟩ : Shape).Idx → EReal)
    (W4 : (⟨2, ![2, 128]⟩ : Shape).Idx → EReal) (B4 : (⟨2, ![2, 1]⟩ : Shape).Idx → EReal) (n : Fin 2000000)
    (hx : x0 (ix2 0 q) = X (ix2 n 0)) (hy : x0 (ix2 1 q) = Y (ix2 n 0)) (ht : x0 (ix2 2 q) = Tm (ix2 n 0)) (h1 : x0 (ix2 3 q) = 1)
    (hw : ∀ (j : Fin 128) (a : Fin 3), x1 (ix2 j (Fin.castSucc a)) = W1 (ix2 j a)) (hb : ∀ j : Fin 128, x1 (ix2 j 3) = B1 (ix2 j 0))
    (h2 : x2 = W2) (h3 : x3 = B2) (h4 : x4 = W3) (h5 : x5 = B3) (h6 : x6 = W4) (h7 : x7 = B4) :
    (k0_pay1 (F := Ideal) x1 x0 x2 x3 x4 x5 x6 x7 : S2x16000.Idx → EReal) (ix2 d q)
      = Mlp.tail W2 B2 W3 B3 W4 B4 (Mlp.first W1 B1 (X (ix2 n 0)) (Y (ix2 n 0)) (Tm (ix2 n 0))) d := by
  subst h2 h3 h4 h5 h6 h7
  rw [pay_apply]
  congr 1
  funext j
  exact Mlp.first4 (fun k => x1 (ix2 j k)) (fun k => x0 (ix2 k q)) _ _ _ _ _ _ _ (hw j 0) (hw j 1) (hw j 2) (hb j) hx hy ht h1

/-! ## What each point writes back, and the array after the region -/

/-- The [2, 2000000] array whose entry (d, n) is the network at point n, output d. -/
def Gk (c : Dev nD) : S2x2000000.Idx → EReal := fun i =>
  Mlp.net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (ix2 (i 1) (i 0))

/-- Point p writes back block p of that array. -/
theorem flushed_eq (c : Dev nD) (t : Fin cfg0.N) :
    (dats m 0 c).flushed 8 t = ((cfg0.win 8).blk t).view.read (Elt Ideal) (Gk m c) := by
  show (cfg0.win 8).cut (grid0.coords t) ((dats m 0 c).after 8 t) = _
  rw [afterOut]
  unfold outB
  rw [View.canon_unit_zero hz]
  simp only [View.ld_unit_zero (S := S4x16000) hz, View.ld_unit_zero (S := S128x4) hz, View.ld_unit_zero (S := S128x128) hz,
    View.ld_unit_zero (S := S128x1) hz, View.ld_unit_zero (S := S2x128) hz, View.ld_unit_zero (S := S2x1) hz]
  obtain ⟨e0, e1⟩ := idx8 t
  have hN : cfg0.N = 125 := N_0
  funext y
  obtain ⟨d, q, rfl⟩ : ∃ (d : Fin 2) (q : Fin 16000), y = ix2 d q := ⟨y 0, y 1, eq_ix2 y⟩
  have ht : t.val < 125 := hN ▸ t.isLt
  let n : Fin 2000000 := ⟨t.val * 16000 + q.val, by have := q.isLt; omega⟩
  have hemb : ((cfg0.win 8).blk t).view.emb (ix2 d q) = (ix2 d n : S2x2000000.Idx) := by
    funext a
    apply Fin.ext
    match a with
    | ⟨0, _⟩ => show win0_8.index t (0 : Fin 2) * 2 + 1 * d.val = d.val; rw [e0]; omega
    | ⟨1, _⟩ => show win0_8.index t (1 : Fin 2) * 16000 + 1 * q.val = t.val * 16000 + q.val; rw [e1]; omega
  rw [View.read_apply, hemb]
  show (k0_pay1 (F := Ideal) (iblk m c 1 t) (iblk m c 0 t) (iblk m c 2 t) (iblk m c 3 t) (iblk m c 4 t) (iblk m c 5 t) (iblk m c 6 t) (iblk m c 7 t) : S2x16000.Idx → EReal) (ix2 d q) = _
  unfold Gk Mlp.net
  exact blk_value (iblk m c 0 t) (iblk m c 1 t) (iblk m c 2 t) (iblk m c 3 t) (iblk m c 4 t) (iblk m c 5 t) (iblk m c 6 t) (iblk m c 7 t) d q
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) n
    ((iblk0_apply m c t 0 q n rfl).trans (slab0 m c n)) ((iblk0_apply m c t 1 q n rfl).trans (slab1 m c n))
    ((iblk0_apply m c t 2 q n rfl).trans (slab2 m c n)) ((iblk0_apply m c t 3 q n rfl).trans (slab3 m c n))
    (fun j a => (congrFun (iblk1_eq m c t) _).trans (w1b_left m c j a)) (fun j => (congrFun (iblk1_eq m c t) _).trans (w1b_right m c j))
    ((iblk2_eq m c t).trans (V_main_arg5 m c)) ((iblk3_eq m c t).trans (V_main_arg6 m c)) ((iblk4_eq m c t).trans (V_main_arg7 m c))
    ((iblk5_eq m c t).trans (V_main_arg8 m c)) ((iblk6_eq m c t).trans (V_main_arg9 m c)) ((iblk7_eq m c t).trans (V_main_arg10 m c))

/-- An index of the array is in point p's block iff each coordinate is in the block's range. -/
theorem mem_blk (t : Fin cfg0.N) (i : S2x2000000.Idx) :
    i ∈ ((cfg0.win 8).blk t).view.set ↔ ∀ a : Fin 2, win0_8.index t a * S2x16000.size a ≤ (i a).val ∧ (i a).val < win0_8.index t a * S2x16000.size a + S2x16000.size a := by
  show i ∈ ((View.whole main_v5).slice (win0_8.rect t)).set ↔ _
  rw [View.set_slice_whole, Rect.mem_set_unit]
  exact Iff.rfl

/-- The 125 blocks fill the array: column n is in block n / 16000. -/
theorem cover (i : S2x2000000.Idx) : ∃ t : Fin cfg0.N, (cfg0.win 8).flush t = true ∧ i ∈ ((cfg0.win 8).blk t).view.set := by
  have hN : cfg0.N = 125 := N_0
  have h0 : (i 0).val < 2 := (i 0).isLt
  have h1 : (i 1).val < 2000000 := (i 1).isLt
  let t : Fin cfg0.N := ⟨(i 1).val / 16000, by rw [hN]; omega⟩
  obtain ⟨e0, e1⟩ := idx8 t
  refine ⟨t, flush0_8 t, ?_⟩
  rw [mem_blk]
  intro a
  match a with
  | ⟨0, _⟩ => show win0_8.index t (0 : Fin 2) * 2 ≤ (i 0).val ∧ (i 0).val < win0_8.index t (0 : Fin 2) * 2 + 2; rw [e0]; omega
  | ⟨1, _⟩ =>
    show win0_8.index t (1 : Fin 2) * 16000 ≤ (i 1).val ∧ (i 1).val < win0_8.index t (1 : Fin 2) * 16000 + 16000
    rw [e1]; show (i 1).val / 16000 * 16000 ≤ (i 1).val ∧ (i 1).val < (i 1).val / 16000 * 16000 + 16000; omega

/-- The region's output array ends as `Gk`. -/
theorem final (c : Dev nD) : (dats m 0 c).arrAt 8 cfg0.N = Gk m c :=
  (dats m 0 c).arrAt_eq_of_cover 8 (Gk m c) (fun t _ => flushed_eq m c t) cover

/-- The entry function's result: the network at point n, output d, at entry (n, d). -/
abbrev result (c : Dev nD) : S2000000x2.Idx → EReal :=
  Mlp.net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The host operations after the region (transpose, then a change of float format) leave the result buffer at `result`. -/
theorem result_eq (c : Dev nD) :
    (Pipeline.afterTail₀ cfgs (dats m) 0 (V0 m) (Hand.post (F := Ideal)) c main_v7 : S2000000x2.Idx → EReal) = result m c := by
  funext i
  unfold Pipeline.afterTail₀
  dsimp only [Hand.post]
  simp only [hostOps1, List.flatten_cons, List.flatten_nil, List.append_nil, List.cons_append, List.nil_append]
  after_results
  rw [Pipeline.withArrays_arr spec0 launch0.win.arr_inj c _ _ 8, final]
  show transpose S2000000x2 [1, 0] (Gk m c) _ i = _
  refine (transpose_apply [1, 0] _ _ i (ix2 (i 1) (i 0)) (fun b => ?_)).trans ?_
  · match b with
    | ⟨0, _⟩ => rfl
    | ⟨1, _⟩ => rfl
  show Mlp.net _ _ _ _ _ _ _ _ _ _ _ (ix2 ((ix2 (i 1) (i 0) : S2x2000000.Idx) 1) ((ix2 (i 1) (i 0) : S2x2000000.Idx) 0)) = Mlp.net _ _ _ _ _ _ _ _ _ _ _ i
  exact congrArg _ (eq_ix2 i).symm

/-- The run, read: the result buffer ends at `result` and the argument arrays as launched. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).2 main_v7 (Pipeline.mem_restRefs_of main_v7 (by decide) (by decide))).trans (result_eq m c),
    kept_of_post m r h c⟩) (run_main m ρ)

end Cert.KernelIdeal.Val

end
-- ==== Proof.RIValue.lean ====
/-
  What the idealized reference's result array holds, as the same function of the eleven argument arrays.

  Before the region the entry function builds the [8, 2015232] slab — rows 0, 1, 2 are x, y, t on the first 2000000
  columns (`rslab0` … `rslab2`), rows 3 … 7 are zero (`rslab_pad`) — and the [128, 8] matrix whose first three columns
  are w1 (`w1p_in`) and whose last five are zero (`w1p_pad`).  At grid point p the body is handed columns
  15744·p … 15744·p + 15743 of the slab and all of every other input; its store, read at (d, q), is the layers after the
  first applied to the eight-term sums of the matrix against the slab's column plus b1 (`pay_apply`).  So point p writes
  back block p of the [2, 2015232] array `Gr` stated over the slab and the matrix as built (`flushed_eq`), the 128 blocks
  fill it (`cover`), and the slice to 2000000 columns and the transpose after the region read it only at columns where the
  eight-term sum plus b1 is the first layer of the network (`Mlp.first8`): `result_eq`.
-/
import proofs.«120418_g2000004916831270_pallasbulk_862_25_alg».proof.Proof.RIFrame
import proofs.«120418_g2000004916831270_pallasbulk_862_25_alg».proof.Proof.Mlp
import Idealize.ShloMosaic.Lib.Pipeline.Value
import Idealize.ShloMosaic.Lib.StableHlo.Run
import Idealize.ShloMosaic.Lib.KernelVsHost
import Idealize.ShloMosaic.Lib.ValueIdx

set_option maxRecDepth 16384

noncomputable section

namespace Cert.ReferenceIdeal.Val

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Hand
open Idealize.ShloMosaic.StableHlo

variable (m : (ℓ : Loc nD τ sig) → Buf (Elt Ideal) ℓ) (ρ : Dev nD → PrngReg)

/-! ## The two arrays built before the region -/

/-- The padding value: the integer 0 converted. -/
theorem padval (i : S_.Idx) : (sitofp (F := Ideal) .f32 (constantI S_ 32 0#32) : S_.Idx → EReal) i = 0 := by
  show (((0#32 : BitVec 32).toInt : ℝ) : EReal) = 0
  simp

/-- Row 0 of the padded slab, at a column below 2000000, is argument 0. -/
theorem rslab0 (c : Dev nD) (n : Fin 2000000) (n' : Fin 2015232) (hn : n'.val = n.val) :
    (V m c main_v2 : S8x2015232.Idx → EReal) (ix2 (0 : Fin 8) n') = (m ((c : Thread nD τ).loc main_arg0) : S2000000x1.Idx → EReal) (ix2 n 0) := by
  dsimp only [V, V0, pre]
  simp only [hostOps0, hostOps0_1, hostOps0_2, hostOps0_3, List.flatten_cons, List.flatten_nil, List.append_nil, List.cons_append, List.nil_append]
  after_results
  simp only [StableHlo.TRef.toBuf, StableHlo.TRef.ofBuf, cast_eq]
  refine (pad_apply_of_inside _ _ _ _ _ _ _ (ix2 (0 : Fin 8) n') (ix2 (0 : Fin 3) n) (fun ax => ?_)).trans ?_
  · match ax with
    | ⟨0, _⟩ => rfl
    | ⟨1, _⟩ => show n'.val = 0 + n.val * (0 + 1); omega
  refine (transpose_apply [1, 0] _ _ (ix2 (0 : Fin 3) n) (ix2 n (0 : Fin 3)) (fun b => ?_)).trans ?_
  · match b with
    | ⟨0, _⟩ => rfl
    | ⟨1, _⟩ => rfl
  refine Eq.trans (concatenate_apply_piece (1 : Fin 2) _ _ (ix2 n (0 : Fin 3)) 0 ?_ S2000000x1 _ rfl rfl 0 rfl (ix2 n (0 : Fin 1)) (fun b hb => ?_) rfl) ?_
  · exact (by decide : (0:ℕ) < 3)
  · match b with
    | ⟨0, _⟩ => rfl
    | ⟨1, _⟩ => exact absurd rfl hb
  rfl

/-- Row 1 of the padded slab, at a column below 2000000, is argument 1. -/
theorem rslab1 (c : Dev nD) (n : Fin 2000000) (n' : Fin 2015232) (hn : n'.val = n.val) :
    (V m c main_v2 : S8x2015232.Idx → EReal) (ix2 (1 : Fin 8) n') = (m ((c : Thread nD τ).loc main_arg1) : S2000000x1.Idx → EReal) (ix2 n 0) := by
  dsimp only [V, V0, pre]
  simp only [hostOps0, hostOps0_1, hostOps0_2, hostOps0_3, List.flatten_cons, List.flatten_nil, List.append_nil, List.cons_append, List.nil_append]
  after_results
  simp only [StableHlo.TRef.toBuf, StableHlo.TRef.ofBuf, cast_eq]
  refine (pad_apply_of_inside _ _ _ _ _ _ _ (ix2 (1 : Fin 8) n') (ix2 (1 : Fin 3) n) (fun ax => ?_)).trans ?_
  · match ax with
    | ⟨0, _⟩ => rfl
    | ⟨1, _⟩ => show n'.val = 0 + n.val * (0 + 1); omega
  refine (transpose_apply [1, 0] _ _ (ix2 (1 : Fin 3) n) (ix2 n (1 : Fin 3)) (fun b => ?_)).trans ?_
  · match b with
    | ⟨0, _⟩ => rfl
    | ⟨1, _⟩ => rfl
  refine Eq.trans (concatenate_apply_piece (1 : Fin 2) _ _ (ix2 n (1 : Fin 3)) 1 ?_ S2000000x1 _ rfl rfl 1 rfl (ix2 n (0 : Fin 1)) (fun b hb => ?_) rfl) ?_
  · exact (by decide : (1:ℕ) < 3)
  · match b with
    | ⟨0, _⟩ => rfl
    | ⟨1, _⟩ => exact absurd rfl hb
  rfl

/-- Row 2 of the padded slab, at a column below 2000000, is argument 2. -/
theorem rslab2 (c : Dev nD) (n : Fin 2000000) (n' : Fin 2015232) (hn : n'.val = n.val) :
    (V m c main_v2 : S8x2015232.Idx → EReal) (ix2 (2 : Fin 8) n') = (m ((c : Thread nD τ).loc main_arg2) : S2000000x1.Idx → EReal) (ix2 n 0) := by
  dsimp only [V, V0, pre]
  simp only [hostOps0, hostOps0_1, hostOps0_2, hostOps0_3, List.flatten_cons, List.flatten_nil, List.append_nil, List.cons_append, List.nil_append]
  after_results
  simp only [StableHlo.TRef.toBuf, StableHlo.TRef.ofBuf, cast_eq]
  refine (pad_apply_of_inside _ _ _ _ _ _ _ (ix2 (2 : Fin 8) n') (ix2 (2 : Fin 3) n) (fun ax => ?_)).trans ?_
  · match ax with
    | ⟨0, _⟩ => rfl
    | ⟨1, _⟩ => show n'.val = 0 + n.val * (0 + 1); omega
  refine (transpose_apply [1, 0] _ _ (ix2 (2 : Fin 3) n) (ix2 n (2 : Fin 3)) (fun b => ?_)).trans ?_
  · match b with
    | ⟨0, _⟩ => rfl
    | ⟨1, _⟩ => rfl
  refine Eq.trans (concatenate_apply_piece (1 : Fin 2) _ _ (ix2 n (2 : Fin 3)) 2 ?_ S2000000x1 _ rfl rfl 2 rfl (ix2 n (0 : Fin 1)) (fun b hb => ?_) rfl) ?_
  · exact (by decide : (2:ℕ) < 3)
  · match b with
    | ⟨0, _⟩ => rfl
    | ⟨1, _⟩ => exact absurd rfl hb
  rfl

/-- Rows 3 … 7 of the padded slab are zero. -/
theorem rslab_pad (c : Dev nD) (k : Fin 8) (hk : 3 ≤ k.val) (n' : Fin 2015232) :
    (V m c main_v2 : S8x2015232.Idx → EReal) (ix2 k n') = (0 : EReal) := by
  dsimp only [V, V0, pre]
  simp only [hostOps0, hostOps0_1, hostOps0_2, hostOps0_3, List.flatten_cons, List.flatten_nil, List.append_nil, List.cons_append, List.nil_append]
  after_results
  simp only [StableHlo.TRef.toBuf, StableHlo.TRef.ofBuf, cast_eq]
  refine (pad_apply_of_not_inside _ _ _ _ _ _ _ (ix2 k n') (0 : Fin 2) (fun h => ?_)).trans (padval _)
  have h3 : (k.val - 0) / (0 + 1) < 3 := h.2.2
  omega

/-- The first three columns of the padded matrix are w1. -/
theorem w1p_in (c : Dev nD) (j : Fin 128) (a : Fin 3) (k : Fin 8) (hk : k.val = a.val) :
    (V m c main_v3 : S128x8.Idx → EReal) (ix2 j k) = (m ((c : Thread nD τ).loc main_arg3) : S128x3.Idx → EReal) (ix2 j a) := by
  dsimp only [V, V0, pre]
  simp only [hostOps0, hostOps0_1, hostOps0_2, hostOps0_3, List.flatten_cons, List.flatten_nil, List.append_nil, List.cons_append, List.nil_append]
  after_results
  simp only [StableHlo.TRef.toBuf, StableHlo.TRef.ofBuf, cast_eq]
  refine (pad_apply_of_inside _ _ _ _ _ _ _ (ix2 j k) (ix2 j a) (fun ax => ?_)).trans ?_
  · match ax with
    | ⟨0, _⟩ => show j.val = 0 + j.val * (0 + 1); omega
    | ⟨1, _⟩ => show k.val = 0 + a.val * (0 + 1); omega
  rfl

/-- Its last five columns are zero. -/
theorem w1p_pad (c : Dev nD) (j : Fin 128) (k : Fin 8) (hk : 3 ≤ k.val) :
    (V m c main_v3 : S128x8.Idx → EReal) (ix2 j k) = (0 : EReal) := by
  dsimp only [V, V0, pre]
  simp only [hostOps0, hostOps0_1, hostOps0_2, hostOps0_3, List.flatten_cons, List.flatten_nil, List.append_nil, List.cons_append, List.nil_append]
  after_results
  simp only [StableHlo.TRef.toBuf, StableHlo.TRef.ofBuf, cast_eq]
  refine (pad_apply_of_not_inside _ _ _ _ _ _ _ (ix2 j k) (1 : Fin 2) (fun h => ?_)).trans (padval _)
  have h3 : (k.val - 0) / (0 + 1) < 3 := h.2.2
  omega

/-! ## The windows' blocks as parts of the arrays -/

theorem idx0 : ∀ t : Fin cfg0.N, win0_0.index t (0 : Fin 2) = 0 ∧ win0_0.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)

/-- Column q of window 0's block at point p is column 15744·p + q of the padded slab. -/
theorem iblk0_apply (c : Dev nD) (t : Fin cfg0.N) (k : Fin 8) (q : Fin 15744) (n' : Fin 2015232) (hn : n'.val = t.val * 15744 + q.val) :
    (iblk m c 0 t : S8x15744.Idx → EReal) (ix2 k q) = (V m c main_v2 : S8x2015232.Idx → EReal) (ix2 k n') := by
  obtain ⟨e0, e1⟩ := idx0 t
  unfold iblk
  rw [View.read_apply]
  show V m c main_v2 _ = V m c main_v2 _
  congr 1
  funext a
  apply Fin.ext
  match a with
  | ⟨0, _⟩ => show win0_0.index t (0 : Fin 2) * 8 + 1 * k.val = k.val; rw [e0]; omega
  | ⟨1, _⟩ => show win0_0.index t (1 : Fin 2) * 15744 + 1 * q.val = n'.val; rw [e1, hn]; omega

theorem idx1 : ∀ t : Fin cfg0.N, win0_1.index t (0 : Fin 2) = 0 ∧ win0_1.index t (1 : Fin 2) = 0 :=
  (by decide +kernel : ∀ t : Fin grid0.N, _)
/-- Window 1's block at every point is all of its array. -/
theorem iblk1_eq (c : Dev nD) (t : Fin cfg0.N) : (iblk m c 1 t : S128x8.Idx → EReal) = (V m c main_v3 : S128x8.Idx → EReal) := by
  obtain ⟨e0, e1⟩ := idx1 t
  funext y
  unfold iblk
  rw [View.read_apply]
  show V m c main_v3 _ = V m c main_v3 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 8 + 1 * (y 1).val = (y 1).val; rw [e1]; omega

theorem idx2 : ∀ t : Fin cfg0.N, win0_2.index t (0 : Fin 2) = 0 ∧ win0_2.index t (1 : Fin 2) = 0 :=
  (by decide +kernel : ∀ t : Fin grid0.N, _)
/-- Window 2's block at every point is all of its array. -/
theorem iblk2_eq (c : Dev nD) (t : Fin cfg0.N) : (iblk m c 2 t : S128x1.Idx → EReal) = (V m c main_arg4 : S128x1.Idx → EReal) := by
  obtain ⟨e0, e1⟩ := idx2 t
  funext y
  unfold iblk
  rw [View.read_apply]
  show V m c main_arg4 _ = V m c main_arg4 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 1 + 1 * (y 1).val = (y 1).val; rw [e1]; omega

theorem idx3 : ∀ t : Fin cfg0.N, win0_3.index t (0 : Fin 2) = 0 ∧ win0_3.index t (1 : Fin 2) = 0 :=
  (by decide +kernel : ∀ t : Fin grid0.N, _)
/-- Window 3's block at every point is all of its array. -/
theorem iblk3_eq (c : Dev nD) (t : Fin cfg0.N) : (iblk m c 3 t : S128x128.Idx → EReal) = (V m c main_arg5 : S128x128.Idx → EReal) := by
  obtain ⟨e0, e1⟩ := idx3 t
  funext y
  unfold iblk
  rw [View.read_apply]
  show V m c main_arg5 _ = V m c main_arg5 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem idx4 : ∀ t : Fin cfg0.N, win0_4.index t (0 : Fin 2) = 0 ∧ win0_4.index t (1 : Fin 2) = 0 :=
  (by decide +kernel : ∀ t : Fin grid0.N, _)
/-- Window 4's block at every point is all of its array. -/
theorem iblk4_eq (c : Dev nD) (t : Fin cfg0.N) : (iblk m c 4 t : S128x1.Idx → EReal) = (V m c main_arg6 : S128x1.Idx → EReal) := by
  obtain ⟨e0, e1⟩ := idx4 t
  funext y
  unfold iblk
  rw [View.read_apply]
  show V m c main_arg6 _ = V m c main_arg6 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 1 + 1 * (y 1).val = (y 1).val; rw [e1]; omega

theorem idx5 : ∀ t : Fin cfg0.N, win0_5.index t (0 : Fin 2) = 0 ∧ win0_5.index t (1 : Fin 2) = 0 :=
  (by decide +kernel : ∀ t : Fin grid0.N, _)
/-- Window 5's block at every point is all of its array. -/
theorem iblk5_eq (c : Dev nD) (t : Fin cfg0.N) : (iblk m c 5 t : S128x128.Idx → EReal) = (V m c main_arg7 : S128x128.Idx → EReal) := by
  obtain ⟨e0, e1⟩ := idx5 t
  funext y
  unfold iblk
  rw [View.read_apply]
  show V m c main_arg7 _ = V m c main_arg7 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem idx6 : ∀ t : Fin cfg0.N, win0_6.index t (0 : Fin 2) = 0 ∧ win0_6.index t (1 : Fin 2) = 0 :=
  (by decide +kernel : ∀ t : Fin grid0.N, _)
/-- Window 6's block at every point is all of its array. -/
theorem iblk6_eq (c : Dev nD) (t : Fin cfg0.N) : (iblk m c 6 t : S128x1.Idx → EReal) = (V m c main_arg8 : S128x1.Idx → EReal) := by
  obtain ⟨e0, e1⟩ := idx6 t
  funext y
  unfold iblk
  rw [View.read_apply]
  show V m c main_arg8 _ = V m c main_arg8 y
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 1 + 1 * (y 1).val = (y 1).val; rw [e1]; omega

theorem idx7 : ∀ t : Fin cfg0.N, win0_7.index t (0 : Fin 2) = 0 ∧ win0_7.index t (1 : Fin 2) = 0 :=
  (by decide +kernel : ∀ t : Fin grid0.N, _)
/-- Window 7's block at every point is all of its array. -/
theorem iblk7_eq (c : Dev nD) (t : Fin cfg0.N) : (iblk m c 7 t : S2x128.Idx → EReal) = (V m c main_arg9 : S2x128.Idx → EReal) := by
  obtain ⟨e0, e1⟩ := idx7 t
  funext y
  unfold iblk
  rw [View.read_apply]
  show V m c main_arg9 _ = V m c main_arg9 y
  congr 1
  funext a
  apply Fin.ext
  match a with
  | ⟨0, _⟩ => show win0_7.index t (0 : Fin 2) * 2 + 1 * (y 0).val = (y 0).val; rw [e0]; omega
  | ⟨1, _⟩ => show win0_7.index t (1 : Fin 2) * 128 + 1 * (y 1).val = (y 1).val; rw [e1]; omega

theorem idx8 : ∀ t : Fin cfg0.N, win0_8.index t (0 : Fin 2) = 0 ∧ win0_8.index t (1 : Fin 2) = 0 :=
  (by decide +kernel : ∀ t : Fin grid0.N, _)
/-- Window 8's block at every point is all of its array. -/
theorem iblk8_eq (c : Dev nD) (t : Fin cfg0.N) : (iblk m c 8 t : S2x1.Idx → EReal) = (V m c main_arg10 : S2x1.Idx → EReal) := by
  obtain ⟨e0, e1⟩ := idx8 t
  funext y
  unfold iblk
  rw [View.read_apply]
  show V m c main_arg10 _ = V m c main_arg10 y
  congr 1
  funext a
  apply Fin.ext
  match a with
  | ⟨0, _⟩ => show win0_8.index t (0 : Fin 2) * 2 + 1 * (y 0).val = (y 0).val; rw [e0]; omega
  | ⟨1, _⟩ => show win0_8.index t (1 : Fin 2) * 1 + 1 * (y 1).val = (y 1).val; rw [e1]; omega

/-! ## The body's store, read at an index -/

theorem hz : (![0, 0] : Fin 2 → Nat) = fun _ => 0 := funext fun a => by fin_cases a <;> rfl

/-- The body's arithmetic at (d, q): the layers after the first, on the eight-term sums of the matrix's rows against
    column q of the slab's block, plus b1. -/
theorem pay_apply (x0 : Vec Ideal S8x15744 .f32) (x1 : Vec Ideal S128x8 .f32) (x2 : Vec Ideal S128x1 .f32) (x3 : Vec Ideal S128x128 .f32) (x4 : Vec Ideal S128x1 .f32)
    (x5 : Vec Ideal S128x128 .f32) (x6 : Vec Ideal S128x1 .f32) (x7 : Vec Ideal S2x128 .f32) (x8 : Vec Ideal S2x1 .f32) (d : Fin 2) (q : Fin 15744) :
    (k0_pay1 (F := Ideal) x1 x0 x2 x3 x4 x5 x6 x7 x8 : S2x15744.Idx → EReal) (ix2 d q)
      = Mlp.tail x3 x4 x5 x6 x7 x8 (fun j => (∑ k : Fin 8, x1 (ix2 j k) * x0 (ix2 k q)) + x2 (ix2 j 0)) d := by
  unfold k0_pay1
  rw [shapeCast_self, shapeCast_self]
  exact Mlp.tailVec_apply 15744 x3 x4 x5 x6 x7 x8
    (addf (matmul (F := Ideal) (DotDims.plain 128 8 15744) none x1 x0 (constant _ .f32 0x00000000#32)) (broadcastTo _ x2 _)) _ _
    (fun j => (∑ k : Fin 8, x1 (ix2 j k) * x0 (ix2 k q)) + x2 (ix2 j 0)) d q (fun j => Mlp.layer_apply 15744 128 8 x1 x2 x0 _ j q)

/-! ## What each point writes back, and the array after the region -/

/-- The [2, 2015232] array the region fills, over the slab and the matrix as built: at (d, n') the layers after the first
    on the eight-term sums against column n' of the slab, plus b1. -/
abbrev slab (c : Dev nD) : S8x2015232.Idx → EReal := V m c main_v2
abbrev w1p (c : Dev nD) : S128x8.Idx → EReal := V m c main_v3
abbrev b1v (c : Dev nD) : S128x1.Idx → EReal := m ((c : Thread nD τ).loc main_arg4)

def Gr (c : Dev nD) : S2x2015232.Idx → EReal := fun i =>
  Mlp.tail (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (fun j => (∑ k : Fin 8, w1p m c (ix2 j k) * slab m c (ix2 k (i 1))) + b1v m c (ix2 j 0)) (i 0)

/-- The same arithmetic with the blocks named as parts of the arrays. -/
theorem blk_value (x0 : Vec Ideal S8x15744 .f32) (x1 : Vec Ideal S128x8 .f32) (x2 : Vec Ideal S128x1 .f32) (x3 : Vec Ideal S128x128 .f32) (x4 : Vec Ideal S128x1 .f32)
    (x5 : Vec Ideal S128x128 .f32) (x6 : Vec Ideal S128x1 .f32) (x7 : Vec Ideal S2x128 .f32) (x8 : Vec Ideal S2x1 .f32) (d : Fin 2) (q : Fin 15744)
    (SL : (⟨2, ![8, 2015232]⟩ : Shape).Idx → EReal) (W1 : (⟨2, ![128, 8]⟩ : Shape).Idx → EReal) (B1 : (⟨2, ![128, 1]⟩ : Shape).Idx → EReal)
    (W2 : (⟨2, ![128, 128]⟩ : Shape).Idx → EReal) (B2 : (⟨2, ![128, 1]⟩ : Shape).Idx → EReal)
    (W3 : (⟨2, ![128, 128]⟩ : Shape).Idx → EReal) (B3 : (⟨2, ![128, 1]⟩ : Shape).Idx → EReal)
    (W4 : (⟨2, ![2, 128]⟩ : Shape).Idx → EReal) (B4 : (⟨2, ![2, 1]⟩ : Shape).Idx → EReal) (n' : Fin 2015232)
    (h0 : ∀ k : Fin 8, x0 (ix2 k q) = SL (ix2 k n')) (h1 : x1 = W1) (h2 : x2 = B1)
    (h3 : x3 = W2) (h4 : x4 = B2) (h5 : x5 = W3) (h6 : x6 = B3) (h7 : x7 = W4) (h8 : x8 = B4) :
    (k0_pay1 (F := Ideal) x1 x0 x2 x3 x4 x5 x6 x7 x8 : S2x15744.Idx → EReal) (ix2 d q)
      = Mlp.tail W2 B2 W3 B3 W4 B4 (fun j => (∑ k : Fin 8, W1 (ix2 j k) * SL (ix2 k n')) + B1 (ix2 j 0)) d := by
  subst h1 h2 h3 h4 h5 h6 h7 h8
  rw [pay_apply]
  congr 1
  funext j
  exact congrArg (· + x2 (ix2 j 0)) (Finset.sum_congr rfl fun k _ => congrArg (x1 (ix2 j k) * ·) (h0 k))

/-- Point p writes back block p of `Gr`. -/
theorem flushed_eq (c : Dev nD) (t : Fin cfg0.N) :
    (dats m 0 c).flushed 9 t = ((cfg0.win 9).blk t).view.read (Elt Ideal) (Gr m c) := by
  show (cfg0.win 9).cut (grid0.coords t) ((dats m 0 c).after 9 t) = _
  rw [afterOut]
  unfold outB
  rw [View.canon_unit_zero hz]
  simp only [View.ld_unit_zero (S := S8x15744) hz, View.ld_unit_zero (S := S128x8) hz, View.ld_unit_zero (S := S128x128) hz,
    View.ld_unit_zero (S := S128x1) hz, View.ld_unit_zero (S := S2x128) hz, View.ld_unit_zero (S := S2x1) hz]
  obtain ⟨e0, e1⟩ := idx9 t
  have hN : cfg0.N = 128 := N_0
  funext y
  obtain ⟨d, q, rfl⟩ : ∃ (d : Fin 2) (q : Fin 15744), y = ix2 d q := ⟨y 0, y 1, eq_ix2 y⟩
  have ht : t.val < 128 := hN ▸ t.isLt
  let n' : Fin 2015232 := ⟨t.val * 15744 + q.val, by have := q.isLt; omega⟩
  have hemb : ((cfg0.win 9).blk t).view.emb (ix2 d q) = (ix2 d n' : S2x2015232.Idx) := by
    funext a
    apply Fin.ext
    match a with
    | ⟨0, _⟩ => show win0_9.index t (0 : Fin 2) * 2 + 1 * d.val = d.val; rw [e0]; omega
    | ⟨1, _⟩ => show win0_9.index t (1 : Fin 2) * 15744 + 1 * q.val = t.val * 15744 + q.val; rw [e1]; omega
  rw [View.read_apply, hemb]
  show (k0_pay1 (F := Ideal) (iblk m c 1 t) (iblk m c 0 t) (iblk m c 2 t) (iblk m c 3 t) (iblk m c 4 t) (iblk m c 5 t) (iblk m c 6 t) (iblk m c 7 t) (iblk m c 8 t) : S2x15744.Idx → EReal) (ix2 d q) = _
  unfold Gr
  exact blk_value (iblk m c 0 t) (iblk m c 1 t) (iblk m c 2 t) (iblk m c 3 t) (iblk m c 4 t) (iblk m c 5 t) (iblk m c 6 t) (iblk m c 7 t) (iblk m c 8 t) d q
    (V m c main_v2) (V m c main_v3) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) n'
    (fun k => iblk0_apply m c t k q n' rfl) (iblk1_eq m c t)
    ((iblk2_eq m c t).trans (V_main_arg4 m c)) ((iblk3_eq m c t).trans (V_main_arg5 m c)) ((iblk4_eq m c t).trans (V_main_arg6 m c))
    ((iblk5_eq m c t).trans (V_main_arg7 m c)) ((iblk6_eq m c t).trans (V_main_arg8 m c)) ((iblk7_eq m c t).trans (V_main_arg9 m c))
    ((iblk8_eq m c t).trans (V_main_arg10 m c))

/-- An index of the array is in point p's block iff each coordinate is in the block's range. -/
theorem mem_blk (t : Fin cfg0.N) (i : S2x2015232.Idx) :
    i ∈ ((cfg0.win 9).blk t).view.set ↔ ∀ a : Fin 2, win0_9.index t a * S2x15744.size a ≤ (i a).val ∧ (i a).val < win0_9.index t a * S2x15744.size a + S2x15744.size a := by
  show i ∈ ((View.whole main_v4).slice (win0_9.rect t)).set ↔ _
  rw [View.set_slice_whole, Rect.mem_set_unit]
  exact Iff.rfl

/-- The 128 blocks fill the array: column n' is in block n' / 15744. -/
theorem cover (i : S2x2015232.Idx) : ∃ t : Fin cfg0.N, (cfg0.win 9).flush t = true ∧ i ∈ ((cfg0.win 9).blk t).view.set := by
  have hN : cfg0.N = 128 := N_0
  have h0 : (i 0).val < 2 := (i 0).isLt
  have h1 : (i 1).val < 2015232 := (i 1).isLt
  let t : Fin cfg0.N := ⟨(i 1).val / 15744, by rw [hN]; omega⟩
  obtain ⟨e0, e1⟩ := idx9 t
  refine ⟨t, flush0_9 t, ?_⟩
  rw [mem_blk]
  intro a
  match a with
  | ⟨0, _⟩ => show win0_9.index t (0 : Fin 2) * 2 ≤ (i 0).val ∧ (i 0).val < win0_9.index t (0 : Fin 2) * 2 + 2; rw [e0]; omega
  | ⟨1, _⟩ =>
    show win0_9.index t (1 : Fin 2) * 15744 ≤ (i 1).val ∧ (i 1).val < win0_9.index t (1 : Fin 2) * 15744 + 15744
    rw [e1]; show (i 1).val / 15744 * 15744 ≤ (i 1).val ∧ (i 1).val < (i 1).val / 15744 * 15744 + 15744; omega

/-- The region's output array ends as `Gr`. -/
theorem final (c : Dev nD) : (dats m 0 c).arrAt 9 cfg0.N = Gr m c :=
  (dats m 0 c).arrAt_eq_of_cover 9 (Gr m c) (fun t _ => flushed_eq m c t) cover

/-- The entry function's result: the network at point n, output d, at entry (n, d). -/
abbrev result (c : Dev nD) : S2000000x2.Idx → EReal :=
  Mlp.net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The host operations after the region (the slice to 2000000 columns, then the transpose) leave the result buffer at
    `result`: at a column below 2000000 the eight-term sum plus b1 is the network's first layer. -/
theorem result_eq (c : Dev nD) :
    (Pipeline.afterTail₀ cfgs (dats m) 0 (V0 m) (Hand.post (F := Ideal)) c main_v6 : S2000000x2.Idx → EReal) = result m c := by
  funext i
  unfold Pipeline.afterTail₀
  dsimp only [Hand.post]
  simp only [hostOps1, List.flatten_cons, List.flatten_nil, List.append_nil, List.cons_append, List.nil_append]
  after_results
  rw [Pipeline.withArrays_arr spec0 launch0.win.arr_inj c _ _ 9, final]
  have hi0 : (i 0).val < 2000000 := (i 0).isLt
  let n' : Fin 2015232 := ⟨(i 0).val, by omega⟩
  refine (transpose_apply [1, 0] _ _ i (ix2 (i 1) (i 0)) (fun b => ?_)).trans ?_
  · match b with
    | ⟨0, _⟩ => rfl
    | ⟨1, _⟩ => rfl
  refine (extractStridedSlice_apply _ _ _ (ix2 (i 1) (i 0)) (ix2 (i 1) n') (fun a => ?_)).trans ?_
  · match a with
    | ⟨0, _⟩ => show (i 1).val = 0 + (i 1).val; omega
    | ⟨1, _⟩ => show (i 0).val = 0 + (i 0).val; omega
  unfold Gr result Mlp.net
  show Mlp.tail _ _ _ _ _ _ _ (i 1) = Mlp.tail _ _ _ _ _ _ _ (i 1)
  congr 1
  funext j
  exact Mlp.first8 (fun k => w1p m c (ix2 j k)) (fun k => slab m c (ix2 k n')) _ _ _ _ _ _ _
    (w1p_in m c j 0 0 rfl) (w1p_in m c j 1 1 rfl) (w1p_in m c j 2 2 rfl) (fun k hk => w1p_pad m c j k hk)
    (rslab0 m c (i 0) n' rfl) (rslab1 m c (i 0) n' rfl) (rslab2 m c (i 0) n' rfl) (fun k hk => rslab_pad m c k hk n')

/-- The run, read: the result buffer ends at `result` and the argument arrays as launched. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).2 main_v6 (Pipeline.mem_restRefs_of main_v6 (by decide) (by decide))).trans (result_eq m c),
    kept_of_post m r h c⟩) (run_main m ρ)

end Cert.ReferenceIdeal.Val

end
-- ==== Proof.lean ====
/-
  The certificate's five claims.

  Both programs compute, at point n and output d, the same three-hidden-layer tanh network of (x n, y n, t n): the kernel
  with the first layer's bias folded into a fourth input row of ones against the matrix (w1 | b1), tiled 16000 points to
  a block; the reference with five zero rows and columns of padding and the bias added after, tiled 15744 points to a
  block over 2015232 columns of which the last 15232 are cut off again.  On the extended reals the two first layers are
  the same four-term sum (1 is a right unit, 0 · 0 = 0: no finiteness of the inputs is used), and the later layers are the
  same text.  Each program's frame is the run of its host operations, its one pipelined region and its host operations after it
  (`KBFrame`, `KIFrame`, `RIFrame`); the two result arrays are read off those runs in `KIValue` and `RIValue`; the
  idealization rewrote nothing, so `preserves` is trivial.
-/
import proofs.«120418_g2000004916831270_pallasbulk_862_25_alg».proof.Defs
import proofs.«120418_g2000004916831270_pallasbulk_862_25_alg».proof.Proof.Gen.Kernel
import proofs.«120418_g2000004916831270_pallasbulk_862_25_alg».proof.Proof.Gen.KernelIdeal
import proofs.«120418_g2000004916831270_pallasbulk_862_25_alg».proof.Proof.Gen.ReferenceIdeal
import proofs.«120418_g2000004916831270_pallasbulk_862_25_alg».proof.Proof.Gen.Pre_finite_inputs
import proofs.«120418_g2000004916831270_pallasbulk_862_25_alg».proof.Proof.KBFrame
import proofs.«120418_g2000004916831270_pallasbulk_862_25_alg».proof.Proof.KIFrame
import proofs.«120418_g2000004916831270_pallasbulk_862_25_alg».proof.Proof.RIFrame
import proofs.«120418_g2000004916831270_pallasbulk_862_25_alg».proof.Proof.KIValue
import proofs.«120418_g2000004916831270_pallasbulk_862_25_alg».proof.Proof.RIValue

noncomputable section

namespace Cert.Proof

open Idealize.ShloMosaic Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized kernel, -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- and the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- The idealization rewrote no operation. -/
theorem preserves : Cert.preserves_Kernel_KernelIdeal := trivial

/-- From memories agreeing on the eleven arguments both idealized programs end with the network's values in their result
    buffers: one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.result m c, Cert.KernelIdeal.Val.run m ρ, ?_⟩
  refine (θ_run Cert.ReferenceIdeal.defs _ _).mono (fun r h c => ⟨(h c).1.trans ?_, (h c).2⟩) (Cert.ReferenceIdeal.Val.run m' ρ')
  obtain ⟨h0, h1, h2, h3, h4, h5, h6, h7, h8, h9, h10⟩ := hagree c
  show Cert.Mlp.net _ _ _ _ _ _ _ _ _ _ _ = Cert.Mlp.net _ _ _ _ _ _ _ _ _ _ _
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
